-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x64 : Shape := ⟨2, ![4096, 64]⟩
abbrev S2x4096x4096 : Shape := ⟨3, ![2, 4096, 4096]⟩
abbrev S_ : Shape := ⟨0, ![]⟩

class Facts : Prop where
  bcast_S_S4096x64 : S_.BroadcastsInDim S4096x64 (![] : Fin 0 → Fin S4096x64.rank)
  reducesTo_S4096x64_S_d0_1 : S4096x64.ReducesTo [0, 1] S_
  h_S_ : 0 < S_.numel
  bcast_S_S2x4096x4096 : S_.BroadcastsInDim S2x4096x4096 (![] : Fin 0 → Fin S2x4096x4096.rank)
  reducesTo_S2x4096x4096_S_d0_1_2 : S2x4096x4096.ReducesTo [0, 1, 2] S_

variable [Facts]

def fn {F : FTy → Type} [FloatOps F] (main_arg0 : FVec F S4096x64 .f32) (main_arg1 : FVec F S2x4096x4096 .f32) : IVec S_ 1 :=
  let main_v0 : FVec F S4096x64 .f32 := Host.absf main_arg0
  let main_cst : FVec F S_ .f32 := constant S_ .f32 0x7F800000#32
  let main_v1 : FVec F S4096x64 .f32 := broadcastInDim S4096x64 ![] bcast_S_S4096x64 main_cst
  let main_v2 : IVec S4096x64 1 := cmpf .olt main_v0 main_v1
  let main_c : IVec S_ 1 := constantI S_ 1 1#1
  let main_v3 : IVec S_ 1 := (fun x v => Host.reduce IntOp.andi x v reducesTo_S4096x64_S_d0_1 h_S_) main_v2 main_c
  let main_v4 : FVec F S2x4096x4096 .f32 := Host.absf main_arg1
  let main_cst_0 : FVec F S_ .f32 := constant S_ .f32 0x7F800000#32
  let main_v5 : FVec F S2x4096x4096 .f32 := broadcastInDim S2x4096x4096 ![] bcast_S_S2x4096x4096 main_cst_0
  let main_v6 : IVec S2x4096x4096 1 := cmpf .olt main_v4 main_v5
  let main_c_1 : IVec S_ 1 := constantI S_ 1 1#1
  let main_v7 : IVec S_ 1 := (fun x v => Host.reduce IntOp.andi x v reducesTo_S2x4096x4096_S_d0_1_2 h_S_) main_v6 main_c_1
  let main_v8 : IVec S_ 1 := andi main_v3 main_v7
  main_v8
-- ==== Kernel.lean ====
abbrev S4096x64 : Shape := ⟨2, ![4096, 64]⟩
abbrev S2x4096x4096 : Shape := ⟨3, ![2, 4096, 4096]⟩
abbrev S_ : Shape := ⟨0, ![]⟩
abbrev S4096x1 : Shape := ⟨2, ![4096, 1]⟩
abbrev S4096x63 : Shape := ⟨2, ![4096, 63]⟩
abbrev S4096x128 : Shape := ⟨2, ![4096, 128]⟩
abbrev S1x4096x4096 : Shape := ⟨3, ![1, 4096, 4096]⟩
abbrev S4096x4096 : Shape := ⟨2, ![4096, 4096]⟩
abbrev S512x4096 : Shape := ⟨2, ![512, 4096]⟩
abbrev S512x128 : Shape := ⟨2, ![512, 128]⟩
abbrev S512x1 : Shape := ⟨2, ![512, 1]⟩
abbrev S512 : Shape := ⟨1, ![512]⟩

abbrev nBuf : Space → Nat
  | .hbm => 14
  | .vmem => 10
  | .smem => 0
  | _ => 0

abbrev bufTy : (tb : Table) → Fin (tcTables nBuf tb) → BufTy
  | .hbm, ⟨0, _⟩ => ⟨S4096x64, .f32⟩
  | .hbm, ⟨1, _⟩ => ⟨S2x4096x4096, .f32⟩
  | .hbm, ⟨2, _⟩ => ⟨S_, .f32⟩
  | .hbm, ⟨3, _⟩ => ⟨S4096x1, .f32⟩
  | .hbm, ⟨4, _⟩ => ⟨S_, .f32⟩
  | .hbm, ⟨5, _⟩ => ⟨S4096x63, .f32⟩
  | .hbm, ⟨6, _⟩ => ⟨S4096x128, .f32⟩
  | .hbm, ⟨7, _⟩ => ⟨S1x4096x4096, .f32⟩
  | .hbm, ⟨8, _⟩ => ⟨S4096x4096, .f32⟩
  | .hbm, ⟨9, _⟩ => ⟨S4096x128, .f32⟩
  | .hbm, ⟨10, _⟩ => ⟨S1x4096x4096, .f32⟩
  | .hbm, ⟨11, _⟩ => ⟨S4096x4096, .f32⟩
  | .hbm, ⟨12, _⟩ => ⟨S4096x128, .f32⟩
  | .hbm, ⟨13, _⟩ => ⟨S4096x64, .f32⟩
  | .local _ .vmem, ⟨0, _⟩ => ⟨S4096x128, .f32⟩
  | .local _ .vmem, ⟨1, _⟩ => ⟨S512x4096, .f32⟩
  | .local _ .vmem, ⟨2, _⟩ => ⟨S512x4096, .f32⟩
  | .local _ .vmem, ⟨3, _⟩ => ⟨S512x128, .f32⟩
  | .local _ .vmem, ⟨4, _⟩ => ⟨S512x128, .f32⟩
  | .local _ .vmem, ⟨5, _⟩ => ⟨S4096x128, .f32⟩
  | .local _ .vmem, ⟨6, _⟩ => ⟨S512x4096, .f32⟩
  | .local _ .vmem, ⟨7, _⟩ => ⟨S512x4096, .f32⟩
  | .local _ .vmem, ⟨8, _⟩ => ⟨S512x128, .f32⟩
  | .local _ .vmem, ⟨9, _⟩ => ⟨S512x128, .f32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let arg0 : BitVec 32 := BitVec.ofNat 32 (i 0).val
  let c512_i32 : BitVec 32 := 512#32
  let v5 : BitVec 32 := Scalar.muli arg0 c512_i32
  let v6 : Index := Scalar.indexCast v5
  let c0_3 : Index := 0#32
  ![v6.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def k1_off1 (i : grid1.Coords) : Fin 2 → Nat :=
  let arg0 : BitVec 32 := BitVec.ofNat 32 (i 0).val
  let c512_i32 : BitVec 32 := 512#32
  let v5 : BitVec 32 := Scalar.muli arg0 c512_i32
  let v6 : Index := Scalar.indexCast v5
  let c0_3 : Index := 0#32
  ![v6.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S4096x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S512x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bcast_S_S4096x1 : S_.BroadcastsInDim S4096x1 (![] : Fin 0 → Fin S4096x1.rank)
  bcast_S_S4096x63 : S_.BroadcastsInDim S4096x63 (![] : Fin 0 → Fin S4096x63.rank)
  concatenates_S4096x64_S4096x1_S4096x63_S4096x128_d1 : Shape.Concatenates [S4096x64, S4096x1, S4096x63] S4096x128 1
  slices_S2x4096x4096_S1x4096x4096_0_0_0 : S2x4096x4096.Slices ![0, 0, 0] S1x4096x4096
  shapeCasts_S1x4096x4096_S4096x4096 : S1x4096x4096.ShapeCasts S4096x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  h_S512x128 : 0 < S512x128.numel
  shapeCasts_S512x128_S512x128 : S512x128.ShapeCasts S512x128
  slices_S512x128_o0_64_S512x1 : S512x128.Slices ![0, 64] S512x1
  shapeCasts_S512x1_S512 : S512x1.ShapeCasts S512
  shapeCasts_S512_S512x1 : S512.ShapeCasts S512x1
  broadcasts_S512x1_S512x128 : S512x1.Broadcasts S512x128
  iota_S512x128_d1_w32 : S512x128.Iotas .tc 32 [1]
  inb_S512x128_S512x128_0_0 : ∀ a, (![0, 0] : Fin 2 → Nat) a + S512x128.size a ≤ S512x128.size a
  slices_S2x4096x4096_S1x4096x4096_1_0_0 : S2x4096x4096.Slices ![1, 0, 0] S1x4096x4096
  slices_S4096x128_S4096x64_0_0 : S4096x128.Slices ![0, 0] S4096x64
  dot_S512x4096_S4096x128_S512x128_1_0_0_1_n_n_wf : DotDims.WF S512x4096 S4096x128 S512x128 [1] [0] [0] [1] [] []
  hrank0 : 0 < grid0.rank
  k0_off1_inb : ∀ i : grid0.Coords, ∀ a, (k0_off1 i) a + S512x128.size a ≤ S4096x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S4096x128.size a
  hwx0_0 : ∀ i : grid0.Coords, EltTy.bits .f32 = 32 ∨ (Rect.block (s := S4096x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .f32 = 32 ∨ (Rect.block (s := S4096x4096) S512x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S4096x128.size a
  hwx0_2 : ∀ i : grid0.Coords, EltTy.bits .f32 = 32 ∨ (Rect.block (s := S4096x128) S512x128.size (cc0_transform_2 i) (hinb0_2 i)).WholeWords (EltTy.packing .f32)
  hrank1 : 0 < grid1.rank
  k1_off1_inb : ∀ i : grid1.Coords, ∀ a, (k1_off1 i) a + S512x128.size a ≤ S4096x128.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S4096x128.size a
  hwx1_0 : ∀ i : grid1.Coords, EltTy.bits .f32 = 32 ∨ (Rect.block (s := S4096x128) S4096x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x4096.size a ≤ S4096x4096.size a
  hwx1_1 : ∀ i : grid1.Coords, EltTy.bits .f32 = 32 ∨ (Rect.block (s := S4096x4096) S512x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x128.size a ≤ S4096x128.size a
  hwx1_2 : ∀ i : grid1.Coords, EltTy.bits .f32 = 32 ∨ (Rect.block (s := S4096x128) S512x128.size (cc1_transform_2 i) (hinb1_2 i)).WholeWords (EltTy.packing .f32)

variable [Facts₀]

def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf

abbrev win0_0 : Pipeline.Window sig grid0 :=
  Pipeline.Window.ofSpec (Memref.whole main_v2) S4096x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v4) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S512x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v5) S4096x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v7) S512x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S512x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4096x64 : Shape := ⟨2, ![4096, 64]⟩
abbrev S2x4096x4096 : Shape := ⟨3, ![2, 4096, 4096]⟩
abbrev S1x4096x4096 : Shape := ⟨3, ![1, 4096, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩

abbrev nBuf : Space → Nat
  | .hbm => 32
  | .vmem => 0
  | .smem => 0
  | _ => 0

abbrev bufTy : (tb : Table) → Fin (tcTables nBuf tb) → BufTy
  | .hbm, ⟨0, _⟩ => ⟨S4096x64, .f32⟩
  | .hbm, ⟨1, _⟩ => ⟨S2x4096x4096, .f32⟩
  | .hbm, ⟨2, _⟩ => ⟨S1x4096x4096, .f32⟩
  | .hbm, ⟨3, _⟩ => ⟨S4096x4096, .f32⟩
  | .hbm, ⟨4, _⟩ => ⟨S4096x64, .f32⟩
  | .hbm, ⟨5, _⟩ => ⟨S4096x64, .f32⟩
  | .hbm, ⟨6, _⟩ => ⟨S_, .f32⟩
  | .hbm, ⟨7, _⟩ => ⟨S4096, .f32⟩
  | .hbm, ⟨8, _⟩ => ⟨S_, .f32⟩
  | .hbm, ⟨9, _⟩ => ⟨S4096, .f32⟩
  | .hbm, ⟨10, _⟩ => ⟨S4096, .f32⟩
  | .hbm, ⟨11, _⟩ => ⟨S_, .f32⟩
  | .hbm, ⟨12, _⟩ => ⟨S4096, .f32⟩
  | .hbm, ⟨13, _⟩ => ⟨S4096, .f32⟩
  | .hbm, ⟨14, _⟩ => ⟨S4096x1, .f32⟩
  | .hbm, ⟨15, _⟩ => ⟨S4096x64, .f32⟩
  | .hbm, ⟨16, _⟩ => ⟨S4096x64, .f32⟩
  | .hbm, ⟨17, _⟩ => ⟨S1x4096x4096, .f32⟩
  | .hbm, ⟨18, _⟩ => ⟨S4096x4096, .f32⟩
  | .hbm, ⟨19, _⟩ => ⟨S4096x64, .f32⟩
  | .hbm, ⟨20, _⟩ => ⟨S4096x64, .f32⟩
  | .hbm, ⟨21, _⟩ => ⟨S_, .f32⟩
  | .hbm, ⟨22, _⟩ => ⟨S4096, .f32⟩
  | .hbm, ⟨23, _⟩ => ⟨S_, .f32⟩
  | .hbm, ⟨24, _⟩ => ⟨S4096, .f32⟩
  | .hbm, ⟨25, _⟩ => ⟨S4096, .f32⟩
  | .hbm, ⟨26, _⟩ => ⟨S_, .f32⟩
  | .hbm, ⟨27, _⟩ => ⟨S4096, .f32⟩
  | .hbm, ⟨28, _⟩ => ⟨S4096, .f32⟩
  | .hbm, ⟨29, _⟩ => ⟨S4096x1, .f32⟩
  | .hbm, ⟨30, _⟩ => ⟨S4096x64, .f32⟩
  | .hbm, ⟨31, _⟩ => ⟨S4096x64, .f32⟩
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]

class Facts₀ : Prop where
  slices_S2x4096x4096_S1x4096x4096_0_0_0 : S2x4096x4096.Slices ![0, 0, 0] S1x4096x4096
  shapeCasts_S1x4096x4096_S4096x4096 : S1x4096x4096.ShapeCasts S4096x4096
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x64_0_1 : S4096x1.BroadcastsInDim S4096x64 (![0, 1] : Fin 2 → Fin S4096x64.rank)
  slices_S2x4096x4096_S1x4096x4096_1_0_0 : S2x4096x4096.Slices ![1, 0, 0] S1x4096x4096
  dot_S4096x4096_S4096x64_S4096x64_1_0_0_1_n_n_wf : DotDims.WF S4096x4096 S4096x64 S4096x64 [1] [0] [0] [1] [] []

variable [Facts₀]

def dot_S4096x4096_S4096x64_S4096x64_1_0_0_1_n_n : DotDims S4096x4096 S4096x64 S4096x64 where
  lhsContracting := [1]
  rhsContracting := [0]
  lhsNonContracting := [0]
  rhsNonContracting := [1]
  lhsBatch := []
  rhsBatch := []
  wf := dot_S4096x4096_S4096x64_S4096x64_1_0_0_1_n_n_wf

class Facts : Prop extends Facts₀ where

variable [Facts]
-- ==== Proof.WordLaunch0.lean ====
/-
  Launch 0 of the layer kernel, one grid point at a time.

  At grid point t the body is handed three staging buffers: the whole widened table e (4096 × 128; the same block at
  every point, fetched once), rows 512·t … 512·t + 511 of the path matrix A (512 × 4096), and the output block
  (512 × 128) at whatever it held. It reads A's block and the whole of e for one matrix product, reads rows
  512·t … of e again for the residual term, reads the output block (a value it never uses) and then overwrites the
  whole output block with one store. So what the output block holds after the body is a function of the two input
  blocks and of t alone, the two inputs are left as found, and nothing else is touched.

  The statements are at a parameter V: what the core's buffers hold when the launch is entered.
-/
import proofs.«159740_g15590731285067_cont_week2b_85_2_alg».proof.Proof.Gen.Kernel.Launch
import proofs.«159740_g15590731285067_cont_week2b_85_2_alg».proof.Proof.Gen.Kernel.Skeleton
import proofs.«159740_g15590731285067_cont_week2b_85_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the body is handed -/

/-- Window w's block at grid point t, read off its array as the launch finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The table's staging buffer holds the table at every point, although it is fetched at the first point only: the
    body leaves it in place and its block index never moves. -/
theorem found0_table {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- The path matrix's staging buffer holds rows 512·t … of the matrix at point t. -/
theorem found0_rows {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-! ## The rectangles the body reads and writes through -/

/-- The whole 512 × 4096 block of the path matrix. -/
abbrev rectA0 : Rect S512x4096 := Rect.unit (s := S512x4096) ![0, 0] S512x4096.size inb_S512x4096_S512x4096_0_0
/-- The whole 4096 × 128 table. -/
abbrev rectE0 : Rect S4096x128 := Rect.unit (s := S4096x128) ![0, 0] S4096x128.size inb_S4096x128_S4096x128_0_0
/-- Rows 512·i … 512·i + 511 of the table, at grid coordinate i. -/
abbrev rectR0 (i : grid0.Coords) : Rect S4096x128 := Rect.unit (s := S4096x128) (k0_off1 i) S512x128.size (k0_off1_inb i)
/-- The whole 512 × 128 output block. -/
abbrev rectO0 : Rect S512x128 := Rect.unit (s := S512x128) ![0, 0] S512x128.size inb_S512x128_S512x128_0_0

/-! ## What the body leaves in the output block -/

/-- The output block after the body at grid coordinate i, from the table e and the matrix rows a: its one store, which
    covers the block, of the layer's arithmetic on the three values loaded. -/
def left0 (i : grid0.Coords) (e : Vec F S4096x128 .f32) (a : Vec F S512x4096 .f32) : Vec F S512x128 .f32 :=
  View.canon [⟨rectO0, k0_pay1 (View.ld a rectA0) (View.ld e rectE0) (View.ld e (rectR0 i))⟩]

/-- The one store covers the block. -/
theorem covers0 (p0 : Vec F S512x128 .f32) (y : S512x128.Idx) :
    ∃ pc ∈ ([⟨rectO0, p0⟩] : List (View.Piece (Elt F) S512x128 .f32)), y ∈ pc.1.set :=
  View.cover_of_tiled [⟨rectO0, p0⟩] S512x128.size (by rfl) y

/-! ## The body's triple -/

set_option maxHeartbeats 1000000 in
/-- On whole staging buffers, the two inputs at read contents e and a and the output at anything, the body runs to its
    end leaving the inputs as they were and the output at `left0 i e a`. -/
theorem body0_triple (c : Dev nD) (E : Set ℕ) (i : grid0.Coords)
    (arg1 : Memref sig .tc .vmem S4096x128 .f32) (harg1 : arg1.IsWhole) (arg2 : Memref sig .tc .vmem S512x4096 .f32) (harg2 : arg2.IsWhole)
    (arg3 : Memref sig .tc .vmem S512x128 .f32) (harg3 : arg3.IsWhole)
    (e : Vec F S4096x128 .f32) (a : Vec F S512x4096 .f32) (K : PUnit → sProp 𝕄) :
    iprop(owns (c : Thread nD τ) arg1 fullShare e ∗ owns (c : Thread nD τ) arg2 fullShare a ∗ (∃ d, owns (c : Thread nD τ) arg3 fullShare d)
        ∗ (iprop(owns (c : Thread nD τ) arg1 fullShare e ∗ owns (c : Thread nD τ) arg2 fullShare a
            ∗ owns (c : Thread nD τ) arg3 fullShare (left0 i e a)) -∗ K ⟨⟩))
      ⊢ wp frame (wpE (defs₀ (F := F)) Variants.none c none) E (cc0__layer_kernel i arg1 harg1 arg2 harg2 arg3 harg3) K := by
  simp only [cc0__layer_kernel_eq_skeleton]; unfold cc0__layer_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (covers0 _)

/-! ## The launch's proof data -/

/-- Per grid point: the two inputs' buffers stay at their blocks, the output's is `left0` of the input blocks; the
    arrays are as the launch finds them; the body needs nothing beyond its three buffers. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => left0 (grid0.coords t) (blk0 V c 0 t) (blk0 V c 1 t)
  Φ _ := Pipeline.ΦA spec0 c
  q _ := fullShare
  owed _ := 0

theorem dat0_A (c : Dev nD) (w : Fin cfg0.W) : (dat0 V c).A w = V c (Pipeline.arrRef spec0 w) := by
  dsimp only [dat0]

theorem dat0_after0 (c : Dev nD) (t : Fin cfg0.N) : (dat0 V c).after 0 t = blk0 V c 0 t := by dsimp only [dat0]
theorem dat0_after1 (c : Dev nD) (t : Fin cfg0.N) : (dat0 V c).after 1 t = blk0 V c 1 t := by dsimp only [dat0]
theorem dat0_after2 (c : Dev nD) (t : Fin cfg0.N) :
    (dat0 V c).after 2 t = left0 (grid0.coords t) (blk0 V c 0 t) (blk0 V c 1 t) := by dsimp only [dat0]

theorem dat0_before0 (c : Dev nD) (t : Fin cfg0.N) (d) : (dat0 V c).before 0 t d = blk0 V c 0 t :=
  found0_table V (dat0 V c) (dat0_A V c 0) (dat0_after0 V c) t d
theorem dat0_before1 (c : Dev nD) (t : Fin cfg0.N) (d) : (dat0 V c).before 1 t d = blk0 V c 1 t :=
  found0_rows V (dat0 V c) (dat0_A V c 1) (dat0_after1 V c) t d

/-! ## The body at a grid point, as the pipeline calls it -/

/-- What the body is called with at point t, the windows one by one, -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem body0_at (c : Dev nD) (t : Fin cfg0.N) :
    pre0 V c t ⊢ wp frame (wpE (defs₀ (F := F)) Variants.none c none) Set.univ (bodyAt0 t) (fun _ => post0 V c t) := by
  unfold pre0 post0 bodyAt0
  simp only [dat0_before0, dat0_before1]
  rw [show (dat0 V c).Φ t.succ = (dat0 V c).Φ t.castSucc from rfl,
    show (dat0 V c).owesAt () t.succ = (dat0 V c).owesAt () t.castSucc from rfl,
    dat0_after0, dat0_after1, dat0_after2]
  iintro ⟨HΦ, Ho, ⟨%d0, H0⟩, ⟨%d1, H1⟩, ⟨%d2, H2⟩⟩
  iapply (body0_triple c Set.univ (grid0.coords t) _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's obligation to the pipeline, at every grid point. -/
theorem body0_obligation (c : Dev nD) : BodyObligation (dat0 (F := F) V c) (defs₀ (F := F)) Variants.none () Set.univ := fun t => by
  rw [bigSep_W0, bigSep_W0]
  exact body0_at V c t

end Cert.Kernel.Hand

end
-- ==== Proof.WordLaunch1.lean ====
/-
  Launch 1 of the layer kernel, one grid point at a time.

  At grid point t the body is handed three staging buffers: the whole widened table e (4096 × 128; the same block at
  every point, fetched once), rows 512·t … 512·t + 511 of the path matrix A (512 × 4096), and the output block
  (512 × 128) at whatever it held. It reads A's block and the whole of e for one matrix product, reads rows
  512·t … of e again for the residual term, reads the output block (a value it never uses) and then overwrites the
  whole output block with one store. So what the output block holds after the body is a function of the two input
  blocks and of t alone, the two inputs are left as found, and nothing else is touched.

  The statements are at a parameter V: what the core's buffers hold when the launch is entered.
-/
import proofs.«159740_g15590731285067_cont_week2b_85_2_alg».proof.Proof.Gen.Kernel.Launch
import proofs.«159740_g15590731285067_cont_week2b_85_2_alg».proof.Proof.Gen.Kernel.Skeleton
import proofs.«159740_g15590731285067_cont_week2b_85_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the body is handed -/

/-- Window w's block at grid point t, read off its array as the launch finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The table's staging buffer holds the table at every point, although it is fetched at the first point only: the
    body leaves it in place and its block index never moves. -/
theorem found1_table {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- The path matrix's staging buffer holds rows 512·t … of the matrix at point t. -/
theorem found1_rows {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-! ## The rectangles the body reads and writes through -/

/-- The whole 512 × 4096 block of the path matrix. -/
abbrev rectA1 : Rect S512x4096 := Rect.unit (s := S512x4096) ![0, 0] S512x4096.size inb_S512x4096_S512x4096_0_0
/-- The whole 4096 × 128 table. -/
abbrev rectE1 : Rect S4096x128 := Rect.unit (s := S4096x128) ![0, 0] S4096x128.size inb_S4096x128_S4096x128_0_0
/-- Rows 512·i … 512·i + 511 of the table, at grid coordinate i. -/
abbrev rectR1 (i : grid1.Coords) : Rect S4096x128 := Rect.unit (s := S4096x128) (k1_off1 i) S512x128.size (k1_off1_inb i)
/-- The whole 512 × 128 output block. -/
abbrev rectO1 : Rect S512x128 := Rect.unit (s := S512x128) ![0, 0] S512x128.size inb_S512x128_S512x128_0_0

/-! ## What the body leaves in the output block -/

/-- The output block after the body at grid coordinate i, from the table e and the matrix rows a: its one store, which
    covers the block, of the layer's arithmetic on the three values loaded. -/
def left1 (i : grid1.Coords) (e : Vec F S4096x128 .f32) (a : Vec F S512x4096 .f32) : Vec F S512x128 .f32 :=
  View.canon [⟨rectO1, k1_pay1 (View.ld a rectA1) (View.ld e rectE1) (View.ld e (rectR1 i))⟩]

/-- The one store covers the block. -/
theorem covers1 (p0 : Vec F S512x128 .f32) (y : S512x128.Idx) :
    ∃ pc ∈ ([⟨rectO1, p0⟩] : List (View.Piece (Elt F) S512x128 .f32)), y ∈ pc.1.set :=
  View.cover_of_tiled [⟨rectO1, p0⟩] S512x128.size (by rfl) y

/-! ## The body's triple -/

set_option maxHeartbeats 1000000 in
/-- On whole staging buffers, the two inputs at read contents e and a and the output at anything, the body runs to its
    end leaving the inputs as they were and the output at `left1 i e a`. -/
theorem body1_triple (c : Dev nD) (E : Set ℕ) (i : grid1.Coords)
    (arg1 : Memref sig .tc .vmem S4096x128 .f32) (harg1 : arg1.IsWhole) (arg2 : Memref sig .tc .vmem S512x4096 .f32) (harg2 : arg2.IsWhole)
    (arg3 : Memref sig .tc .vmem S512x128 .f32) (harg3 : arg3.IsWhole)
    (e : Vec F S4096x128 .f32) (a : Vec F S512x4096 .f32) (K : PUnit → sProp 𝕄) :
    iprop(owns (c : Thread nD τ) arg1 fullShare e ∗ owns (c : Thread nD τ) arg2 fullShare a ∗ (∃ d, owns (c : Thread nD τ) arg3 fullShare d)
        ∗ (iprop(owns (c : Thread nD τ) arg1 fullShare e ∗ owns (c : Thread nD τ) arg2 fullShare a
            ∗ owns (c : Thread nD τ) arg3 fullShare (left1 i e a)) -∗ K ⟨⟩))
      ⊢ wp frame (wpE (defs₀ (F := F)) Variants.none c none) E (cc1__layer_kernel i arg1 harg1 arg2 harg2 arg3 harg3) K := by
  simp only [cc1__layer_kernel_eq_skeleton]; unfold cc1__layer_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (covers1 _)

/-! ## The launch's proof data -/

/-- Per grid point: the two inputs' buffers stay at their blocks, the output's is `left1` of the input blocks; the
    arrays are as the launch finds them; the body needs nothing beyond its three buffers. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => left1 (grid1.coords t) (blk1 V c 0 t) (blk1 V c 1 t)
  Φ _ := Pipeline.ΦA spec1 c
  q _ := fullShare
  owed _ := 0

theorem dat1_A (c : Dev nD) (w : Fin cfg1.W) : (dat1 V c).A w = V c (Pipeline.arrRef spec1 w) := by
  dsimp only [dat1]

theorem dat1_after0 (c : Dev nD) (t : Fin cfg1.N) : (dat1 V c).after 0 t = blk1 V c 0 t := by dsimp only [dat1]
theorem dat1_after1 (c : Dev nD) (t : Fin cfg1.N) : (dat1 V c).after 1 t = blk1 V c 1 t := by dsimp only [dat1]
theorem dat1_after2 (c : Dev nD) (t : Fin cfg1.N) :
    (dat1 V c).after 2 t = left1 (grid1.coords t) (blk1 V c 0 t) (blk1 V c 1 t) := by dsimp only [dat1]

theorem dat1_before0 (c : Dev nD) (t : Fin cfg1.N) (d) : (dat1 V c).before 0 t d = blk1 V c 0 t :=
  found1_table V (dat1 V c) (dat1_A V c 0) (dat1_after0 V c) t d
theorem dat1_before1 (c : Dev nD) (t : Fin cfg1.N) (d) : (dat1 V c).before 1 t d = blk1 V c 1 t :=
  found1_rows V (dat1 V c) (dat1_A V c 1) (dat1_after1 V c) t d

/-! ## The body at a grid point, as the pipeline calls it -/

/-- What the body is called with at point t, the windows one by one, -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem body1_at (c : Dev nD) (t : Fin cfg1.N) :
    pre1 V c t ⊢ wp frame (wpE (defs₀ (F := F)) Variants.none c none) Set.univ (bodyAt1 t) (fun _ => post1 V c t) := by
  unfold pre1 post1 bodyAt1
  simp only [dat1_before0, dat1_before1]
  rw [show (dat1 V c).Φ t.succ = (dat1 V c).Φ t.castSucc from rfl,
    show (dat1 V c).owesAt () t.succ = (dat1 V c).owesAt () t.castSucc from rfl,
    dat1_after0, dat1_after1, dat1_after2]
  iintro ⟨HΦ, Ho, ⟨%d0, H0⟩, ⟨%d1, H1⟩, ⟨%d2, H2⟩⟩
  iapply (body1_triple c Set.univ (grid1.coords t) _ _ _ _ _ _ (blk1 V c 0 t) (blk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's obligation to the pipeline, at every grid point. -/
theorem body1_obligation (c : Dev nD) : BodyObligation (dat1 (F := F) V c) (defs₀ (F := F)) Variants.none () Set.univ := fun t => by
  rw [bigSep_W1, bigSep_W1]
  exact body1_at V c t

end Cert.Kernel.Hand

end
-- ==== Proof.WordRun.lean ====
/-
  The whole program as five stretches: host operations that widen the argument table and cut out path matrix 0; launch
  0 of the layer kernel; host operations that cut out path matrix 1; launch 1; the host operation that keeps the first
  64 columns.

  What every buffer of the core holds at each of the six boundaries is a fold from the launch memory: a host stretch
  applies its operations; a launch leaves its three arrays at what the pipeline's write-backs leave (the two inputs
  as entered, the output at the blocks the grid points wrote) and every other buffer as entered. Each stretch is run
  from the boundary before it to the boundary after it, and at the end every buffer is read against the last
  boundary's contents. Neither argument array is written by any stretch, so both end as launched.
-/
import proofs.«159740_g15590731285067_cont_week2b_85_2_alg».proof.Proof.WordLaunch0
import proofs.«159740_g15590731285067_cont_week2b_85_2_alg».proof.Proof.WordLaunch1

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the six boundaries -/

/-- At launch. -/
abbrev B0 : Dev nD → Valuation τ sig (Elt F) := fun c b => (s₀ m ρ).mem ((c : Dev nD), b)
/-- After the first host stretch: launch 0 is entered from here. -/
abbrev B1 : Dev nD → Valuation τ sig (Elt F) := fun c => StableHlo.after hostOps0 (B0 m ρ c)
abbrev E1 : (c : Dev nD) → (b : Ref sig .tc) → Buf (Elt F) ((c : Thread nD τ).loc b) := fun c b => B1 m ρ c b
/-- After launch 0: its arrays at what the write-backs leave, the rest as entered. -/
def B2 (c : Dev nD) : Valuation τ sig (Elt F) :=
  Pipeline.withArrays spec0 c (B1 m ρ c) fun w => (dat0 (E1 m ρ) c).arrAt w cfg0.N
theorem B2_array (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_other (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev X2 : (c : Dev nD) → (b : Ref sig .tc) → Buf (Elt F) ((c : Thread nD τ).loc b) := fun c b => B2 m ρ c b
theorem left_arrays0 (c : Dev nD) (w : Fin cfg0.W) : (dat0 (E1 m ρ) c).arrAt w cfg0.N = X2 m ρ c (Pipeline.arrRef spec0 w) :=
  (B2_array m ρ c w).symm
theorem left_rest0 (c : Dev nD) : ∀ b, b ∉ Finset.univ.image (Pipeline.arrRef spec0) → X2 m ρ c b = E1 m ρ c b :=
  fun b hb => B2_other m ρ c b fun w e => hb (Finset.mem_image.mpr ⟨w, Finset.mem_univ _, e⟩)

/-- After the second host stretch: launch 1 is entered from here. -/
abbrev B3 : Dev nD → Valuation τ sig (Elt F) := fun c => StableHlo.after hostOps1 (B2 m ρ c)
abbrev E3 : (c : Dev nD) → (b : Ref sig .tc) → Buf (Elt F) ((c : Thread nD τ).loc b) := fun c b => B3 m ρ c b
/-- After launch 1. -/
def B4 (c : Dev nD) : Valuation τ sig (Elt F) :=
  Pipeline.withArrays spec1 c (B3 m ρ c) fun w => (dat1 (E3 m ρ) c).arrAt w cfg1.N
theorem B4_array (c : Dev nD) (w : Fin cfg1.W) :
    B4 m ρ c (Proc.devRef .tc (Pipeline.arrRef spec1 w)) = (dat1 (E3 m ρ) c).arrAt w cfg1.N := by
  unfold B4; exact Pipeline.withArrays_arr spec1 launch1.win.arr_inj c _ _ w
theorem B4_other (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev X4 : (c : Dev nD) → (b : Ref sig .tc) → Buf (Elt F) ((c : Thread nD τ).loc b) := fun c b => B4 m ρ c b
theorem left_arrays1 (c : Dev nD) (w : Fin cfg1.W) : (dat1 (E3 m ρ) c).arrAt w cfg1.N = X4 m ρ c (Pipeline.arrRef spec1 w) :=
  (B4_array m ρ c w).symm
theorem left_rest1 (c : Dev nD) : ∀ b, b ∉ Finset.univ.image (Pipeline.arrRef spec1) → X4 m ρ c b = E3 m ρ c b :=
  fun b hb => B4_other m ρ c b fun w e => hb (Finset.mem_image.mpr ⟨w, Finset.mem_univ _, e⟩)

/-- After the last host stretch: the end. -/
abbrev B5 : Dev nD → Valuation τ sig (Elt F) := fun c => StableHlo.after hostOps2 (B4 m ρ c)

/-! ## Which buffers a host stretch writes -/

local macro "one_written" : tactic =>
  `(tactic| (simp only [StableHlo.nullary_writes, StableHlo.unary_writes, StableHlo.binary_writes, StableHlo.reshape_writes,
      StableHlo.nary_writes, Finset.singleton_subset_iff, List.mem_toFinset]; exact List.mem_map_of_mem (by decide)))

abbrev written0 : List (Ref sig .tc) := [main_cst, main_v0, main_cst_0, main_v1, main_v2, main_v3, main_v4]
theorem writes0 : (hostOps0 : List (HloOp τ sig (Elt F))).Forall fun op => op.writes ⊆ (written0.map (Proc.devRef (τ := τ) .tc)).toFinset := by
  simp only [List.Forall]
  exact ⟨by one_written, by one_written, by one_written, by one_written, by one_written, by one_written, by one_written⟩
abbrev written1 : List (Ref sig .tc) := [main_v6, main_v7]
theorem writes1 : (hostOps1 : List (HloOp τ sig (Elt F))).Forall fun op => op.writes ⊆ (written1.map (Proc.devRef (τ := τ) .tc)).toFinset := by
  simp only [List.Forall]
  exact ⟨by one_written, by one_written⟩
abbrev written2 : List (Ref sig .tc) := [main_v9]
theorem writes2 : (hostOps2 : List (HloOp τ sig (Elt F))).Forall fun op => op.writes ⊆ (written2.map (Proc.devRef (τ := τ) .tc)).toFinset := by
  simp only [List.Forall]
  one_written

theorem B1_kept (c : Dev nD) (r : Ref sig .tc) (h : r ∉ written0) : B1 m ρ c r = B0 m ρ c r :=
  StableHlo.after_of_writes_sub hostOps0 _ writes0 h
theorem B3_kept (c : Dev nD) (r : Ref sig .tc) (h : r ∉ written1) : B3 m ρ c r = B2 m ρ c r :=
  StableHlo.after_of_writes_sub hostOps1 _ writes1 h
theorem B5_kept (c : Dev nD) (r : Ref sig .tc) (h : r ∉ written2) : B5 m ρ c r = B4 m ρ c r :=
  StableHlo.after_of_writes_sub hostOps2 _ writes2 h

/-- The argument table ends as launched: no stretch writes it. -/
theorem B5_arg0 (c : Dev nD) : B5 m ρ c (Proc.devRef .tc main_arg0) = m ((c : Thread nD τ).loc main_arg0) :=
  (B5_kept m ρ c main_arg0 (by decide)).trans <| (B4_other m ρ c main_arg0 (by decide)).trans <|
    (B3_kept m ρ c main_arg0 (by decide)).trans <| (B2_other m ρ c main_arg0 (by decide)).trans <|
    (B1_kept m ρ c main_arg0 (by decide)).trans rfl
/-- The stack of path matrices ends as launched. -/
theorem B5_arg1 (c : Dev nD) : B5 m ρ c (Proc.devRef .tc main_arg1) = m ((c : Thread nD τ).loc main_arg1) :=
  (B5_kept m ρ c main_arg1 (by decide)).trans <| (B4_other m ρ c main_arg1 (by decide)).trans <|
    (B3_kept m ρ c main_arg1 (by decide)).trans <| (B2_other m ρ c main_arg1 (by decide)).trans <|
    (B1_kept m ρ c main_arg1 (by decide)).trans rfl

/-! ## The proof data of the two launches, and what rides beside the buffers -/

abbrev noTables : (p : Fin 2) → (pcfgs (F := F) p).Adm := fun p => (cfgs p).toPCfg_adm
/-- Each launch's proof data at the contents it is entered from. -/
def pdats : (p : Fin 2) → (c : Dev nD) → Dat τ (Elt F) Unit ℕ (UR sig nD τ) ℕ (Pipeline.pin (pcfgs (F := F)) noTables p) c
  | ⟨0, _⟩ => fun c => dat0 (E1 m ρ) c
  | ⟨1, _⟩ => fun c => dat1 (E3 m ρ) c
abbrev 𝒱₀ : Variants := Variants.none
abbrev noPairs : GSem nD τ sig → Finset Unit := fun _ => ∅
abbrev noLevel : GSem nD τ sig → Unit → ℕ := fun _ _ => 0
/-- Beside the buffers: the generator register at some state, and the core owing nothing. -/
abbrev Rest (c : Dev nD) : sProp 𝕄 := iprop((∃ r, prngReg c r) ∗ ∃ W, owes (c : Thread nD τ) (0 : CellTallies nD τ sig Unit) W)
/-- A host stretch run from contents `W`, the rest riding along. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ noPairs noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

theorem fresh0 : (hostOps0 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor
theorem fresh2 : (hostOps2 : List (HloOp τ sig (Elt F))).Forall fun op => op.fresh = ∅ := by
  simp only [List.Forall]; repeat' constructor
theorem unscoped_held (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every buffer at the last boundary's contents, the generator register. -/
abbrev Last (c : Dev nD) : sProp 𝕄 := iprop(StableHlo.held (c : Thread nD τ) (Pipeline.ucRefs τ sig) (B5 m ρ c) ∗ ∃ r, prngReg c r)

/-! ## The two launches as stretches -/

set_option backward.isDefEq.respectTransparency.types false in
/-- Launch 0, from every buffer at `B1` to every buffer at `B2`: its three arrays are taken out of the buffers held and put
    back at what the pipeline leaves; the generator register passes through the pipeline's invariant untouched. -/
def launchSeg0 : Pipeline.RegionSeg (pcfgs (F := F)) noTables (pdats m ρ) () defs₀ 𝒱₀ noPairs noLevel 0 where
  win := launch0.win.to₀
  block_pos := launch0.block_pos
  stage_whole := launch0.stage_whole
  K := PEmpty
  osem k := k.elim
  ho := Pipeline.OwnSemFacts.none _
  hbody c := (body0_obligation (E1 m ρ) c).loose
  hwaits := Pipeline.hwaits_of_owed_zero _ _ _ _ noPairs noLevel 0 fun _ _ => rfl
  pre c := iprop(StableHlo.held (c : Thread nD τ) (Pipeline.ucRefs τ sig) (B1 m ρ c) ∗ Rest c)
  post c := iprop(StableHlo.held (c : Thread nD τ) (Pipeline.ucRefs τ sig) (B2 m ρ c) ∗ Rest c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) noTables (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (pdats m ρ) ((pdats m ρ 0 c).share_full fun _ => rfl)
      (E1 m ρ c) (X2 m ρ c) ((pdats m ρ 0 c).arrAt · cfg0.N) (left_arrays0 m ρ c) (left_rest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1, from every buffer at `B3` to every buffer at `B4`, in the same way. -/
def launchSeg1 : Pipeline.RegionSeg (pcfgs (F := F)) noTables (pdats m ρ) () defs₀ 𝒱₀ noPairs noLevel 1 where
  win := launch1.win.to₀
  block_pos := launch1.block_pos
  stage_whole := launch1.stage_whole
  K := PEmpty
  osem k := k.elim
  ho := Pipeline.OwnSemFacts.none _
  hbody c := (body1_obligation (E3 m ρ) c).loose
  hwaits := Pipeline.hwaits_of_owed_zero _ _ _ _ noPairs noLevel 1 fun _ _ => rfl
  pre c := iprop(StableHlo.held (c : Thread nD τ) (Pipeline.ucRefs τ sig) (B3 m ρ c) ∗ Rest c)
  post c := iprop(StableHlo.held (c : Thread nD τ) (Pipeline.ucRefs τ sig) (B4 m ρ c) ∗ Rest c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) noTables (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (pdats m ρ) ((pdats m ρ 1 c).share_full fun _ => rfl)
      (E3 m ρ c) (X4 m ρ c) ((pdats m ρ 1 c).arrAt · cfg1.N) (left_arrays1 m ρ c) (left_rest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its five stretches, and the run -/

abbrev stretches : List (Pipeline.Seg (pcfgs (F := F)) noTables (pdats m ρ) () defs₀ 𝒱₀ noPairs noLevel) :=
  [ .host (stretch hostOps0 hostOps0_sub fresh0 (B0 m ρ)),
    .region (launchSeg0 m ρ),
    .host (stretch hostOps1 hostOps1_sub fresh1 (B2 m ρ)),
    .region (launchSeg1 m ρ),
    .host (stretch hostOps2 hostOps2_sub fresh2 (B4 m ρ)) ]

theorem main_is_stretches (c : Dev nD) : main (F := F) c = Pipeline.Seg.run (stretches m ρ) := (main_chain c).trans (by chain_rfl)

set_option backward.isDefEq.respectTransparency.types false in
/-- THE RUN: from any memory with zero counters every weakly fair execution of the program terminates, nothing faults,
    and every final memory holds, in every buffer that outlives the launches, the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B5 m ρ c b) :=
  Pipeline.θ_run_regions_kit (pcfgs (F := F)) noTables (pdats m ρ) () cellOf_inj emb₁ defs₀ 𝒱₀ noPairs noLevel m ρ main (stretches m ρ)
    (fun c Q => by rw [main_is_stretches m ρ c])
    (by simp only [stretches, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ Rest c)) (Tₙ := Last m ρ)
    (hch := ⟨fun _ => .rfl, fun _ => .rfl, fun _ => .rfl, fun _ => .rfl, fun _ => .rfl, fun c => by
      show (iprop(StableHlo.held (c : Thread nD τ) (Pipeline.ucRefs τ sig) (B5 m ρ c) ∗ Rest c) : sProp 𝕄) ⊢ _
      iintro ⟨Hh, Hp, HO⟩
      isplitl [Hh Hp]
      · isplitl [Hh]; · iexact Hh
        iexact Hp
      iexact HO⟩)
    (hinit := by
      refine Pipeline.initEach noPairs noLevel fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B5 m ρ c b)
    (hfin := fun c s' => by
      iintro ⟨⟨Hh, -⟩, HSI⟩
      unfold StableHlo.held
      imodintro
      iapply (pointsTo_read_all (Pipeline.ucRefs τ sig) (fun b => (((c : Thread nD τ)).1, b)) (B5 m ρ c) s')
      isplitl [Hh] <;> iassumption)
    (hQ := fun s h c => h c)

/-- THE FRAME: the program runs to its end and both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (unscoped_held main_arg0 (by decide))).trans (B5_arg0 m ρ c),
     (h c _ (unscoped_held main_arg1 (by decide))).trans (B5_arg1 m ρ c)⟩) (run_all m ρ)

end Cert.Kernel.Hand

end
-- ==== Proof.IdealLaunch0.lean ====
/-
  Launch 0 of the layer kernel, one grid point at a time.

  At grid point t the body is handed three staging buffers: the whole widened table e (4096 × 128; the same block at
  every point, fetched once), rows 512·t … 512·t + 511 of the path matrix A (512 × 4096), and the output block
  (512 × 128) at whatever it held. It reads A's block and the whole of e for one matrix product, reads rows
  512·t … of e again for the residual term, reads the output block (a value it never uses) and then overwrites the
  whole output block with one store. So what the output block holds after the body is a function of the two input
  blocks and of t alone, the two inputs are left as found, and nothing else is touched.

  The statements are at a parameter V: what the core's buffers hold when the launch is entered.
-/
import proofs.«159740_g15590731285067_cont_week2b_85_2_alg».proof.Proof.Gen.KernelIdeal.Launch
import proofs.«159740_g15590731285067_cont_week2b_85_2_alg».proof.Proof.Gen.KernelIdeal.Skeleton
import proofs.«159740_g15590731285067_cont_week2b_85_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the body is handed -/

/-- Window w's block at grid point t, read off its array as the launch finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The table's staging buffer holds the table at every point, although it is fetched at the first point only: the
    body leaves it in place and its block index never moves. -/
theorem found0_table {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- The path matrix's staging buffer holds rows 512·t … of the matrix at point t. -/
theorem found0_rows {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-! ## The rectangles the body reads and writes through -/

/-- The whole 512 × 4096 block of the path matrix. -/
abbrev rectA0 : Rect S512x4096 := Rect.unit (s := S512x4096) ![0, 0] S512x4096.size inb_S512x4096_S512x4096_0_0
/-- The whole 4096 × 128 table. -/
abbrev rectE0 : Rect S4096x128 := Rect.unit (s := S4096x128) ![0, 0] S4096x128.size inb_S4096x128_S4096x128_0_0
/-- Rows 512·i … 512·i + 511 of the table, at grid coordinate i. -/
abbrev rectR0 (i : grid0.Coords) : Rect S4096x128 := Rect.unit (s := S4096x128) (k0_off1 i) S512x128.size (k0_off1_inb i)
/-- The whole 512 × 128 output block. -/
abbrev rectO0 : Rect S512x128 := Rect.unit (s := S512x128) ![0, 0] S512x128.size inb_S512x128_S512x128_0_0

/-! ## What the body leaves in the output block -/

/-- The output block after the body at grid coordinate i, from the table e and the matrix rows a: its one store, which
    covers the block, of the layer's arithmetic on the three values loaded. -/
def left0 (i : grid0.Coords) (e : Vec F S4096x128 .f32) (a : Vec F S512x4096 .f32) : Vec F S512x128 .f32 :=
  View.canon [⟨rectO0, k0_pay1 (View.ld a rectA0) (View.ld e rectE0) (View.ld e (rectR0 i))⟩]

/-- The one store covers the block. -/
theorem covers0 (p0 : Vec F S512x128 .f32) (y : S512x128.Idx) :
    ∃ pc ∈ ([⟨rectO0, p0⟩] : List (View.Piece (Elt F) S512x128 .f32)), y ∈ pc.1.set :=
  View.cover_of_tiled [⟨rectO0, p0⟩] S512x128.size (by rfl) y

/-! ## The body's triple -/

set_option maxHeartbeats 1000000 in
/-- On whole staging buffers, the two inputs at read contents e and a and the output at anything, the body runs to its
    end leaving the inputs as they were and the output at `left0 i e a`. -/
theorem body0_triple (c : Dev nD) (E : Set ℕ) (i : grid0.Coords)
    (arg1 : Memref sig .tc .vmem S4096x128 .f32) (harg1 : arg1.IsWhole) (arg2 : Memref sig .tc .vmem S512x4096 .f32) (harg2 : arg2.IsWhole)
    (arg3 : Memref sig .tc .vmem S512x128 .f32) (harg3 : arg3.IsWhole)
    (e : Vec F S4096x128 .f32) (a : Vec F S512x4096 .f32) (K : PUnit → sProp 𝕄) :
    iprop(owns (c : Thread nD τ) arg1 fullShare e ∗ owns (c : Thread nD τ) arg2 fullShare a ∗ (∃ d, owns (c : Thread nD τ) arg3 fullShare d)
        ∗ (iprop(owns (c : Thread nD τ) arg1 fullShare e ∗ owns (c : Thread nD τ) arg2 fullShare a
            ∗ owns (c : Thread nD τ) arg3 fullShare (left0 i e a)) -∗ K ⟨⟩))
      ⊢ wp frame (wpE (defs₀ (F := F)) Variants.none c none) E (cc0__layer_kernel i arg1 harg1 arg2 harg2 arg3 harg3) K := by
  simp only [cc0__layer_kernel_eq_skeleton]; unfold cc0__layer_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (covers0 _)

/-! ## The launch's proof data -/

/-- Per grid point: the two inputs' buffers stay at their blocks, the output's is `left0` of the input blocks; the
    arrays are as the launch finds them; the body needs nothing beyond its three buffers. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => left0 (grid0.coords t) (blk0 V c 0 t) (blk0 V c 1 t)
  Φ _ := Pipeline.ΦA spec0 c
  q _ := fullShare
  owed _ := 0

theorem dat0_A (c : Dev nD) (w : Fin cfg0.W) : (dat0 V c).A w = V c (Pipeline.arrRef spec0 w) := by
  dsimp only [dat0]

theorem dat0_after0 (c : Dev nD) (t : Fin cfg0.N) : (dat0 V c).after 0 t = blk0 V c 0 t := by dsimp only [dat0]
theorem dat0_after1 (c : Dev nD) (t : Fin cfg0.N) : (dat0 V c).after 1 t = blk0 V c 1 t := by dsimp only [dat0]
theorem dat0_after2 (c : Dev nD) (t : Fin cfg0.N) :
    (dat0 V c).after 2 t = left0 (grid0.coords t) (blk0 V c 0 t) (blk0 V c 1 t) := by dsimp only [dat0]

theorem dat0_before0 (c : Dev nD) (t : Fin cfg0.N) (d) : (dat0 V c).before 0 t d = blk0 V c 0 t :=
  found0_table V (dat0 V c) (dat0_A V c 0) (dat0_after0 V c) t d
theorem dat0_before1 (c : Dev nD) (t : Fin cfg0.N) (d) : (dat0 V c).before 1 t d = blk0 V c 1 t :=
  found0_rows V (dat0 V c) (dat0_A V c 1) (dat0_after1 V c) t d

/-! ## The body at a grid point, as the pipeline calls it -/

/-- What the body is called with at point t, the windows one by one, -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem body0_at (c : Dev nD) (t : Fin cfg0.N) :
    pre0 V c t ⊢ wp frame (wpE (defs₀ (F := F)) Variants.none c none) Set.univ (bodyAt0 t) (fun _ => post0 V c t) := by
  unfold pre0 post0 bodyAt0
  simp only [dat0_before0, dat0_before1]
  rw [show (dat0 V c).Φ t.succ = (dat0 V c).Φ t.castSucc from rfl,
    show (dat0 V c).owesAt () t.succ = (dat0 V c).owesAt () t.castSucc from rfl,
    dat0_after0, dat0_after1, dat0_after2]
  iintro ⟨HΦ, Ho, ⟨%d0, H0⟩, ⟨%d1, H1⟩, ⟨%d2, H2⟩⟩
  iapply (body0_triple c Set.univ (grid0.coords t) _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's obligation to the pipeline, at every grid point. -/
theorem body0_obligation (c : Dev nD) : BodyObligation (dat0 (F := F) V c) (defs₀ (F := F)) Variants.none () Set.univ := fun t => by
  rw [bigSep_W0, bigSep_W0]
  exact body0_at V c t

end Cert.KernelIdeal.Hand

end
-- ==== Proof.IdealLaunch1.lean ====
/-
  Launch 1 of the layer kernel, one grid point at a time.

  At grid point t the body is handed three staging buffers: the whole widened table e (4096 × 128; the same block at
  every point, fetched once), rows 512·t … 512·t + 511 of the path matrix A (512 × 4096), and the output block
  (512 × 128) at whatever it held. It reads A's block and the whole of e for one matrix product, reads rows
  512·t … of e again for the residual term, reads the output block (a value it never uses) and then overwrites the
  whole output block with one store. So what the output block holds after the body is a function of the two input
  blocks and of t alone, the two inputs are left as found, and nothing else is touched.

  The statements are at a parameter V: what the core's buffers hold when the launch is entered.
-/
import proofs.«159740_g15590731285067_cont_week2b_85_2_alg».proof.Proof.Gen.KernelIdeal.Launch
import proofs.«159740_g15590731285067_cont_week2b_85_2_alg».proof.Proof.Gen.KernelIdeal.Skeleton
import proofs.«159740_g15590731285067_cont_week2b_85_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the body is handed -/

/-- Window w's block at grid point t, read off its array as the launch finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The table's staging buffer holds the table at every point, although it is fetched at the first point only: the
    body leaves it in place and its block index never moves. -/
theorem found1_table {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- The path matrix's staging buffer holds rows 512·t … of the matrix at point t. -/
theorem found1_rows {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-! ## The rectangles the body reads and writes through -/

/-- The whole 512 × 4096 block of the path matrix. -/
abbrev rectA1 : Rect S512x4096 := Rect.unit (s := S512x4096) ![0, 0] S512x4096.size inb_S512x4096_S512x4096_0_0
/-- The whole 4096 × 128 table. -/
abbrev rectE1 : Rect S4096x128 := Rect.unit (s := S4096x128) ![0, 0] S4096x128.size inb_S4096x128_S4096x128_0_0
/-- Rows 512·i … 512·i + 511 of the table, at grid coordinate i. -/
abbrev rectR1 (i : grid1.Coords) : Rect S4096x128 := Rect.unit (s := S4096x128) (k1_off1 i) S512x128.size (k1_off1_inb i)
/-- The whole 512 × 128 output block. -/
abbrev rectO1 : Rect S512x128 := Rect.unit (s := S512x128) ![0, 0] S512x128.size inb_S512x128_S512x128_0_0

/-! ## What the body leaves in the output block -/

/-- The output block after the body at grid coordinate i, from the table e and the matrix rows a: its one store, which
    covers the block, of the layer's arithmetic on the three values loaded. -/
def left1 (i : grid1.Coords) (e : Vec F S4096x128 .f32) (a : Vec F S512x4096 .f32) : Vec F S512x128 .f32 :=
  View.canon [⟨rectO1, k1_pay1 (View.ld a rectA1) (View.ld e rectE1) (View.ld e (rectR1 i))⟩]

/-- The one store covers the block. -/
theorem covers1 (p0 : Vec F S512x128 .f32) (y : S512x128.Idx) :
    ∃ pc ∈ ([⟨rectO1, p0⟩] : List (View.Piece (Elt F) S512x128 .f32)), y ∈ pc.1.set :=
  View.cover_of_tiled [⟨rectO1, p0⟩] S512x128.size (by rfl) y

/-! ## The body's triple -/

set_option maxHeartbeats 1000000 in
/-- On whole staging buffers, the two inputs at read contents e and a and the output at anything, the body runs to its
    end leaving the inputs as they were and the output at `left1 i e a`. -/
theorem body1_triple (c : Dev nD) (E : Set ℕ) (i : grid1.Coords)
    (arg1 : Memref sig .tc .vmem S4096x128 .f32) (harg1 : arg1.IsWhole) (arg2 : Memref sig .tc .vmem S512x4096 .f32) (harg2 : arg2.IsWhole)
    (arg3 : Memref sig .tc .vmem S512x128 .f32) (harg3 : arg3.IsWhole)
    (e : Vec F S4096x128 .f32) (a : Vec F S512x4096 .f32) (K : PUnit → sProp 𝕄) :
    iprop(owns (c : Thread nD τ) arg1 fullShare e ∗ owns (c : Thread nD τ) arg2 fullShare a ∗ (∃ d, owns (c : Thread nD τ) arg3 fullShare d)
        ∗ (iprop(owns (c : Thread nD τ) arg1 fullShare e ∗ owns (c : Thread nD τ) arg2 fullShare a
            ∗ owns (c : Thread nD τ) arg3 fullShare (left1 i e a)) -∗ K ⟨⟩))
      ⊢ wp frame (wpE (defs₀ (F := F)) Variants.none c none) E (cc1__layer_kernel i arg1 harg1 arg2 harg2 arg3 harg3) K := by
  simp only [cc1__layer_kernel_eq_skeleton]; unfold cc1__layer_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (covers1 _)

/-! ## The launch's proof data -/

/-- Per grid point: the two inputs' buffers stay at their blocks, the output's is `left1` of the input blocks; the
    arrays are as the launch finds them; the body needs nothing beyond its three buffers. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => left1 (grid1.coords t) (blk1 V c 0 t) (blk1 V c 1 t)
  Φ _ := Pipeline.ΦA spec1 c
  q _ := fullShare
  owed _ := 0

theorem dat1_A (c : Dev nD) (w : Fin cfg1.W) : (dat1 V c).A w = V c (Pipeline.arrRef spec1 w) := by
  dsimp only [dat1]

theorem dat1_after0 (c : Dev nD) (t : Fin cfg1.N) : (dat1 V c).after 0 t = blk1 V c 0 t := by dsimp only [dat1]
theorem dat1_after1 (c : Dev nD) (t : Fin cfg1.N) : (dat1 V c).after 1 t = blk1 V c 1 t := by dsimp only [dat1]
theorem dat1_after2 (c : Dev nD) (t : Fin cfg1.N) :
    (dat1 V c).after 2 t = left1 (grid1.coords t) (blk1 V c 0 t) (blk1 V c 1 t) := by dsimp only [dat1]

theorem dat1_before0 (c : Dev nD) (t : Fin cfg1.N) (d) : (dat1 V c).before 0 t d = blk1 V c 0 t :=
  found1_table V (dat1 V c) (dat1_A V c 0) (dat1_after0 V c) t d
theorem dat1_before1 (c : Dev nD) (t : Fin cfg1.N) (d) : (dat1 V c).before 1 t d = blk1 V c 1 t :=
  found1_rows V (dat1 V c) (dat1_A V c 1) (dat1_after1 V c) t d

/-! ## The body at a grid point, as the pipeline calls it -/

/-- What the body is called with at point t, the windows one by one, -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem body1_at (c : Dev nD) (t : Fin cfg1.N) :
    pre1 V c t ⊢ wp frame (wpE (defs₀ (F := F)) Variants.none c none) Set.univ (bodyAt1 t) (fun _ => post1 V c t) := by
  unfold pre1 post1 bodyAt1
  simp only [dat1_before0, dat1_before1]
  rw [show (dat1 V c).Φ t.succ = (dat1 V c).Φ t.castSucc from rfl,
    show (dat1 V c).owesAt () t.succ = (dat1 V c).owesAt () t.castSucc from rfl,
    dat1_after0, dat1_after1, dat1_after2]
  iintro ⟨HΦ, Ho, ⟨%d0, H0⟩, ⟨%d1, H1⟩, ⟨%d2, H2⟩⟩
  iapply (body1_triple c Set.univ (grid1.coords t) _ _ _ _ _ _ (blk1 V c 0 t) (blk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's obligation to the pipeline, at every grid point. -/
theorem body1_obligation (c : Dev nD) : BodyObligation (dat1 (F := F) V c) (defs₀ (F := F)) Variants.none () Set.univ := fun t => by
  rw [bigSep_W1, bigSep_W1]
  exact body1_at V c t

end Cert.KernelIdeal.Hand

end
-- ==== Proof.IdealRun.lean ====
/-
  The whole program as five stretches: host operations that widen the argument table and cut out path matrix 0; launch
  0 of the layer kernel; host operations that cut out path matrix 1; launch 1; the host operation that keeps the first
  64 columns.

  What every buffer of the core holds at each of the six boundaries is a fold from the launch memory: a host stretch
  applies its operations; a launch leaves its three arrays at what the pipeline's write-backs leave (the two inputs
  as entered, the output at the blocks the grid points wrote) and every other buffer as entered. Each stretch is run
  from the boundary before it to the boundary after it, and at the end every buffer is read against the last
  boundary's contents. Neither argument array is written by any stretch, so both end as launched.
-/
import proofs.«159740_g15590731285067_cont_week2b_85_2_alg».proof.Proof.IdealLaunch0
import proofs.«159740_g15590731285067_cont_week2b_85_2_alg».proof.Proof.IdealLaunch1

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the six boundaries -/

/-- At launch. -/
abbrev B0 : Dev nD → Valuation τ sig (Elt F) := fun c b => (s₀ m ρ).mem ((c : Dev nD), b)
/-- After the first host stretch: launch 0 is entered from here. -/
abbrev B1 : Dev nD → Valuation τ sig (Elt F) := fun c => StableHlo.after hostOps0 (B0 m ρ c)
abbrev E1 : (c : Dev nD) → (b : Ref sig .tc) → Buf (Elt F) ((c : Thread nD τ).loc b) := fun c b => B1 m ρ c b
/-- After launch 0: its arrays at what the write-backs leave, the rest as entered. -/
def B2 (c : Dev nD) : Valuation τ sig (Elt F) :=
  Pipeline.withArrays spec0 c (B1 m ρ c) fun w => (dat0 (E1 m ρ) c).arrAt w cfg0.N
theorem B2_array (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_other (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev X2 : (c : Dev nD) → (b : Ref sig .tc) → Buf (Elt F) ((c : Thread nD τ).loc b) := fun c b => B2 m ρ c b
theorem left_arrays0 (c : Dev nD) (w : Fin cfg0.W) : (dat0 (E1 m ρ) c).arrAt w cfg0.N = X2 m ρ c (Pipeline.arrRef spec0 w) :=
  (B2_array m ρ c w).symm
theorem left_rest0 (c : Dev nD) : ∀ b, b ∉ Finset.univ.image (Pipeline.arrRef spec0) → X2 m ρ c b = E1 m ρ c b :=
  fun b hb => B2_other m ρ c b fun w e => hb (Finset.mem_image.mpr ⟨w, Finset.mem_univ _, e⟩)

/-- After the second host stretch: launch 1 is entered from here. -/
abbrev B3 : Dev nD → Valuation τ sig (Elt F) := fun c => StableHlo.after hostOps1 (B2 m ρ c)
abbrev E3 : (c : Dev nD) → (b : Ref sig .tc) → Buf (Elt F) ((c : Thread nD τ).loc b) := fun c b => B3 m ρ c b
/-- After launch 1. -/
def B4 (c : Dev nD) : Valuation τ sig (Elt F) :=
  Pipeline.withArrays spec1 c (B3 m ρ c) fun w => (dat1 (E3 m ρ) c).arrAt w cfg1.N
theorem B4_array (c : Dev nD) (w : Fin cfg1.W) :
    B4 m ρ c (Proc.devRef .tc (Pipeline.arrRef spec1 w)) = (dat1 (E3 m ρ) c).arrAt w cfg1.N := by
  unfold B4; exact Pipeline.withArrays_arr spec1 launch1.win.arr_inj c _ _ w
theorem B4_other (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev X4 : (c : Dev nD) → (b : Ref sig .tc) → Buf (Elt F) ((c : Thread nD τ).loc b) := fun c b => B4 m ρ c b
theorem left_arrays1 (c : Dev nD) (w : Fin cfg1.W) : (dat1 (E3 m ρ) c).arrAt w cfg1.N = X4 m ρ c (Pipeline.arrRef spec1 w) :=
  (B4_array m ρ c w).symm
theorem left_rest1 (c : Dev nD) : ∀ b, b ∉ Finset.univ.image (Pipeline.arrRef spec1) → X4 m ρ c b = E3 m ρ c b :=
  fun b hb => B4_other m ρ c b fun w e => hb (Finset.mem_image.mpr ⟨w, Finset.mem_univ _, e⟩)

/-- After the last host stretch: the end. -/
abbrev B5 : Dev nD → Valuation τ sig (Elt F) := fun c => StableHlo.after hostOps2 (B4 m ρ c)

/-! ## Which buffers a host stretch writes -/

local macro "one_written" : tactic =>
  `(tactic| (simp only [StableHlo.nullary_writes, StableHlo.unary_writes, StableHlo.binary_writes, StableHlo.reshape_writes,
      StableHlo.nary_writes, Finset.singleton_subset_iff, List.mem_toFinset]; exact List.mem_map_of_mem (by decide)))

abbrev written0 : List (Ref sig .tc) := [main_cst, main_v0, main_cst_0, main_v1, main_v2, main_v3, main_v4]
theorem writes0 : (hostOps0 : List (HloOp τ sig (Elt F))).Forall fun op => op.writes ⊆ (written0.map (Proc.devRef (τ := τ) .tc)).toFinset := by
  simp only [List.Forall]
  exact ⟨by one_written, by one_written, by one_written, by one_written, by one_written, by one_written, by one_written⟩
abbrev written1 : List (Ref sig .tc) := [main_v6, main_v7]
theorem writes1 : (hostOps1 : List (HloOp τ sig (Elt F))).Forall fun op => op.writes ⊆ (written1.map (Proc.devRef (τ := τ) .tc)).toFinset := by
  simp only [List.Forall]
  exact ⟨by one_written, by one_written⟩
abbrev written2 : List (Ref sig .tc) := [main_v9]
theorem writes2 : (hostOps2 : List (HloOp τ sig (Elt F))).Forall fun op => op.writes ⊆ (written2.map (Proc.devRef (τ := τ) .tc)).toFinset := by
  simp only [List.Forall]
  one_written

theorem B1_kept (c : Dev nD) (r : Ref sig .tc) (h : r ∉ written0) : B1 m ρ c r = B0 m ρ c r :=
  StableHlo.after_of_writes_sub hostOps0 _ writes0 h
theorem B3_kept (c : Dev nD) (r : Ref sig .tc) (h : r ∉ written1) : B3 m ρ c r = B2 m ρ c r :=
  StableHlo.after_of_writes_sub hostOps1 _ writes1 h
theorem B5_kept (c : Dev nD) (r : Ref sig .tc) (h : r ∉ written2) : B5 m ρ c r = B4 m ρ c r :=
  StableHlo.after_of_writes_sub hostOps2 _ writes2 h

/-- The argument table ends as launched: no stretch writes it. -/
theorem B5_arg0 (c : Dev nD) : B5 m ρ c (Proc.devRef .tc main_arg0) = m ((c : Thread nD τ).loc main_arg0) :=
  (B5_kept m ρ c main_arg0 (by decide)).trans <| (B4_other m ρ c main_arg0 (by decide)).trans <|
    (B3_kept m ρ c main_arg0 (by decide)).trans <| (B2_other m ρ c main_arg0 (by decide)).trans <|
    (B1_kept m ρ c main_arg0 (by decide)).trans rfl
/-- The stack of path matrices ends as launched. -/
theorem B5_arg1 (c : Dev nD) : B5 m ρ c (Proc.devRef .tc main_arg1) = m ((c : Thread nD τ).loc main_arg1) :=
  (B5_kept m ρ c main_arg1 (by decide)).trans <| (B4_other m ρ c main_arg1 (by decide)).trans <|
    (B3_kept m ρ c main_arg1 (by decide)).trans <| (B2_other m ρ c main_arg1 (by decide)).trans <|
    (B1_kept m ρ c main_arg1 (by decide)).trans rfl

/-! ## The proof data of the two launches, and what rides beside the buffers -/

abbrev noTables : (p : Fin 2) → (pcfgs (F := F) p).Adm := fun p => (cfgs p).toPCfg_adm
/-- Each launch's proof data at the contents it is entered from. -/
def pdats : (p : Fin 2) → (c : Dev nD) → Dat τ (Elt F) Unit ℕ (UR sig nD τ) ℕ (Pipeline.pin (pcfgs (F := F)) noTables p) c
  | ⟨0, _⟩ => fun c => dat0 (E1 m ρ) c
  | ⟨1, _⟩ => fun c => dat1 (E3 m ρ) c
abbrev 𝒱₀ : Variants := Variants.none
abbrev noPairs : GSem nD τ sig → Finset Unit := fun _ => ∅
abbrev noLevel : GSem nD τ sig → Unit → ℕ := fun _ _ => 0
/-- Beside the buffers: the generator register at some state, and the core owing nothing. -/
abbrev Rest (c : Dev nD) : sProp 𝕄 := iprop((∃ r, prngReg c r) ∗ ∃ W, owes (c : Thread nD τ) (0 : CellTallies nD τ sig Unit) W)
/-- A host stretch run from contents `W`, the rest riding along. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ noPairs noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

theorem fresh0 : (hostOps0 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor
theorem fresh2 : (hostOps2 : List (HloOp τ sig (Elt F))).Forall fun op => op.fresh = ∅ := by
  simp only [List.Forall]; repeat' constructor
theorem unscoped_held (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every buffer at the last boundary's contents, the generator register. -/
abbrev Last (c : Dev nD) : sProp 𝕄 := iprop(StableHlo.held (c : Thread nD τ) (Pipeline.ucRefs τ sig) (B5 m ρ c) ∗ ∃ r, prngReg c r)

/-! ## The two launches as stretches -/

set_option backward.isDefEq.respectTransparency.types false in
/-- Launch 0, from every buffer at `B1` to every buffer at `B2`: its three arrays are taken out of the buffers held and put
    back at what the pipeline leaves; the generator register passes through the pipeline's invariant untouched. -/
def launchSeg0 : Pipeline.RegionSeg (pcfgs (F := F)) noTables (pdats m ρ) () defs₀ 𝒱₀ noPairs noLevel 0 where
  win := launch0.win.to₀
  block_pos := launch0.block_pos
  stage_whole := launch0.stage_whole
  K := PEmpty
  osem k := k.elim
  ho := Pipeline.OwnSemFacts.none _
  hbody c := (body0_obligation (E1 m ρ) c).loose
  hwaits := Pipeline.hwaits_of_owed_zero _ _ _ _ noPairs noLevel 0 fun _ _ => rfl
  pre c := iprop(StableHlo.held (c : Thread nD τ) (Pipeline.ucRefs τ sig) (B1 m ρ c) ∗ Rest c)
  post c := iprop(StableHlo.held (c : Thread nD τ) (Pipeline.ucRefs τ sig) (B2 m ρ c) ∗ Rest c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) noTables (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (pdats m ρ) ((pdats m ρ 0 c).share_full fun _ => rfl)
      (E1 m ρ c) (X2 m ρ c) ((pdats m ρ 0 c).arrAt · cfg0.N) (left_arrays0 m ρ c) (left_rest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1, from every buffer at `B3` to every buffer at `B4`, in the same way. -/
def launchSeg1 : Pipeline.RegionSeg (pcfgs (F := F)) noTables (pdats m ρ) () defs₀ 𝒱₀ noPairs noLevel 1 where
  win := launch1.win.to₀
  block_pos := launch1.block_pos
  stage_whole := launch1.stage_whole
  K := PEmpty
  osem k := k.elim
  ho := Pipeline.OwnSemFacts.none _
  hbody c := (body1_obligation (E3 m ρ) c).loose
  hwaits := Pipeline.hwaits_of_owed_zero _ _ _ _ noPairs noLevel 1 fun _ _ => rfl
  pre c := iprop(StableHlo.held (c : Thread nD τ) (Pipeline.ucRefs τ sig) (B3 m ρ c) ∗ Rest c)
  post c := iprop(StableHlo.held (c : Thread nD τ) (Pipeline.ucRefs τ sig) (B4 m ρ c) ∗ Rest c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) noTables (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (pdats m ρ) ((pdats m ρ 1 c).share_full fun _ => rfl)
      (E3 m ρ c) (X4 m ρ c) ((pdats m ρ 1 c).arrAt · cfg1.N) (left_arrays1 m ρ c) (left_rest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its five stretches, and the run -/

abbrev stretches : List (Pipeline.Seg (pcfgs (F := F)) noTables (pdats m ρ) () defs₀ 𝒱₀ noPairs noLevel) :=
  [ .host (stretch hostOps0 hostOps0_sub fresh0 (B0 m ρ)),
    .region (launchSeg0 m ρ),
    .host (stretch hostOps1 hostOps1_sub fresh1 (B2 m ρ)),
    .region (launchSeg1 m ρ),
    .host (stretch hostOps2 hostOps2_sub fresh2 (B4 m ρ)) ]

theorem main_is_stretches (c : Dev nD) : main (F := F) c = Pipeline.Seg.run (stretches m ρ) := (main_chain c).trans (by chain_rfl)

set_option backward.isDefEq.respectTransparency.types false in
/-- THE RUN: from any memory with zero counters every weakly fair execution of the program terminates, nothing faults,
    and every final memory holds, in every buffer that outlives the launches, the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B5 m ρ c b) :=
  Pipeline.θ_run_regions_kit (pcfgs (F := F)) noTables (pdats m ρ) () cellOf_inj emb₁ defs₀ 𝒱₀ noPairs noLevel m ρ main (stretches m ρ)
    (fun c Q => by rw [main_is_stretches m ρ c])
    (by simp only [stretches, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ Rest c)) (Tₙ := Last m ρ)
    (hch := ⟨fun _ => .rfl, fun _ => .rfl, fun _ => .rfl, fun _ => .rfl, fun _ => .rfl, fun c => by
      show (iprop(StableHlo.held (c : Thread nD τ) (Pipeline.ucRefs τ sig) (B5 m ρ c) ∗ Rest c) : sProp 𝕄) ⊢ _
      iintro ⟨Hh, Hp, HO⟩
      isplitl [Hh Hp]
      · isplitl [Hh]; · iexact Hh
        iexact Hp
      iexact HO⟩)
    (hinit := by
      refine Pipeline.initEach noPairs noLevel fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B5 m ρ c b)
    (hfin := fun c s' => by
      iintro ⟨⟨Hh, -⟩, HSI⟩
      unfold StableHlo.held
      imodintro
      iapply (pointsTo_read_all (Pipeline.ucRefs τ sig) (fun b => (((c : Thread nD τ)).1, b)) (B5 m ρ c) s')
      isplitl [Hh] <;> iassumption)
    (hQ := fun s h c => h c)

/-- THE FRAME: the program runs to its end and both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (unscoped_held main_arg0 (by decide))).trans (B5_arg0 m ρ c),
     (h c _ (unscoped_held main_arg1 (by decide))).trans (B5_arg1 m ρ c)⟩) (run_all m ρ)

end Cert.KernelIdeal.Hand

end
-- ==== Proof.Spec.lean ====
/-
  Mean aggregation of an embedding table along dense path matrices, over the extended reals.

  One layer replaces row r of a table e (4096 rows, 64 columns) by
      (e_r + Σ_j A_rj · e_j) · (1 / (Σ_j A_rj + 1)),
  the row plus the A-weighted sum of all rows, scaled by the reciprocal of one plus the row's total weight.
  The result of the program is two layers, along the path matrices P_0 and then P_1.

  The same layer can be computed on a table widened to 128 columns whose column 64 holds the constant one: the
  weighted sum of that column IS the row's total weight (x · 1 = x on every extended real, the infinities
  included), so a single matrix product yields both the aggregated columns and the normaliser. Writing the constant one
  back into column 64 keeps the property for the next layer. The columns past 64 never meet the columns before it.
  No law used here needs a finite entry: only x · 1 = x.
-/
import Idealize.ShloMosaic.PureOps.Ideal.Laws
import Idealize.ShloMosaic.Lib.ValueIdx

noncomputable section

open scoped BigOperators

namespace Cert.PathMean

open Idealize.ShloMosaic Idealize.ShloMosaic.ValueIdx

/-- The float word of 1.0 read as an extended real. -/
abbrev one : EReal := Ideal.ofBits .f32 0x3F800000#32

/-- It is the number one. -/
theorem one_eq : one = 1 := IdealRules.sign_bit.ideal_onePat .f32

/-- One layer on a 64-column table: row `r`, column `k`. -/
def layer (A : Fin 4096 → Fin 4096 → EReal) (e : Fin 4096 → Fin 64 → EReal) (r : Fin 4096) (k : Fin 64) : EReal :=
  (e r k + ∑ j : Fin 4096, A r j * e j k) * Ideal.div one ((∑ j : Fin 4096, A r j) + one)

/-- Path matrix `p` of the stack of two. -/
def path (P : (⟨3, ![2, 4096, 4096]⟩ : Shape).Idx → EReal) (p : Fin 2) : Fin 4096 → Fin 4096 → EReal :=
  fun r j => P (ix3 p r j)

/-- A table given at indices, by rows and columns. -/
def table (x : (⟨2, ![4096, 64]⟩ : Shape).Idx → EReal) : Fin 4096 → Fin 64 → EReal := fun r k => x (ix2 r k)

/-- THE RESULT: two layers, along path matrix 0 and then path matrix 1, at an index of the 4096 × 64 output. -/
def result (x : (⟨2, ![4096, 64]⟩ : Shape).Idx → EReal) (P : (⟨3, ![2, 4096, 4096]⟩ : Shape).Idx → EReal) :
    (⟨2, ![4096, 64]⟩ : Shape).Idx → EReal :=
  fun i => layer (path P 1) (layer (path P 0) (table x)) (i 0) (i 1)

/-- The layer on a table widened to 128 columns: column 64 is rewritten to one, every other column `q` is the layer's
    formula with the normaliser read off the weighted sum of column 64. -/
def wideLayer (A : Fin 4096 → Fin 4096 → EReal) (e : Fin 4096 → Fin 128 → EReal) (r : Fin 4096) (q : Fin 128) : EReal :=
  if q.val = 64 then one
  else (e r q + ∑ j : Fin 4096, A r j * e j q) * Ideal.div one ((∑ j : Fin 4096, A r j * e j (64 : Fin 128)) + one)

/-- The first 64 columns of a widened table. -/
def narrow (e : Fin 4096 → Fin 128 → EReal) : Fin 4096 → Fin 64 → EReal :=
  fun r k => e r ⟨k.val, by have := k.isLt; omega⟩

/-- A 64-column table widened: the table, then a column of ones, then columns of `z`. -/
def widen (z : EReal) (e : Fin 4096 → Fin 64 → EReal) : Fin 4096 → Fin 128 → EReal :=
  fun r q => if h : q.val < 64 then e r ⟨q.val, h⟩ else if q.val = 64 then one else z

theorem widen_unit (z : EReal) (e : Fin 4096 → Fin 64 → EReal) (r : Fin 4096) : widen z e r (64 : Fin 128) = one := by
  unfold widen
  rw [dif_neg (by decide), if_pos (by decide)]

theorem narrow_widen (z : EReal) (e : Fin 4096 → Fin 64 → EReal) : narrow (widen z e) = e := by
  funext r k
  unfold narrow widen
  rw [dif_pos k.isLt]

/-- The widened layer leaves one in column 64. -/
theorem wideLayer_unit (A : Fin 4096 → Fin 4096 → EReal) (e : Fin 4096 → Fin 128 → EReal) (r : Fin 4096) :
    wideLayer A e r (64 : Fin 128) = one := by
  unfold wideLayer
  rw [if_pos (by decide)]

/-- On a widened table whose column 64 is one, the first 64 columns of the widened layer are the layer of the first 64
    columns: the weighted sum of the column of ones is the total weight. -/
theorem narrow_wideLayer (A : Fin 4096 → Fin 4096 → EReal) (e : Fin 4096 → Fin 128 → EReal)
    (h : ∀ j, e j (64 : Fin 128) = one) : narrow (wideLayer A e) = layer A (narrow e) := by
  funext r k
  have hk : ¬ ((⟨k.val, by have := k.isLt; omega⟩ : Fin 128).val = 64) := by have := k.isLt; show ¬ k.val = 64; omega
  unfold narrow wideLayer layer
  rw [if_neg hk]
  have hs : (∑ j : Fin 4096, A r j * e j (64 : Fin 128)) = ∑ j : Fin 4096, A r j :=
    Finset.sum_congr rfl fun j _ => by rw [h j, one_eq, mul_one]
  rw [hs]

/-- Two widened layers from the widened argument table, narrowed, are the two layers. -/
theorem narrow_two (z : EReal) (A0 A1 : Fin 4096 → Fin 4096 → EReal) (e : Fin 4096 → Fin 64 → EReal) :
    narrow (wideLayer A1 (wideLayer A0 (widen z e))) = layer A1 (layer A0 e) := by
  rw [narrow_wideLayer A1 _ (wideLayer_unit A0 _), narrow_wideLayer A0 _ (widen_unit z e), narrow_widen]

end Cert.PathMean

end
-- ==== Proof.LibLayout.lean ====
/-
  Two column layouts of small arrays read at an index: a vector viewed as a one-column matrix, and a one-column
  matrix repeated along its rows' second axis. (The library has the row forms; these are the column forms a
  keep-dimensions row reduction produces.)
-/
import Idealize.ShloMosaic.Lib.Pipeline.Value
import Idealize.ShloMosaic.Lib.ValueIdx

namespace Cert.Attn.Layout

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Attn.Layout
-- ==== Proof.LibHostRead.lean ====
/-
  Small layout operations of a host program, read at an index, generic in the sizes.

  * A vector `[a]` broadcast to a column `[a, 1]` reads the vector at the row (`bcastCol_apply`); a scalar broadcast
    to any shape reads the scalar (`bcastScalar_apply`); a vector `[b]` broadcast to a row `[1, b]` and then to
    `[a, b]` reads the vector at the column (`bcastRow_apply`).
  * Row `r` of a two-row array `[2, E]`, sliced out as `[1, E]` and reshaped to `[E]`, reads the array at `(r, e)`
    (`rowSlice_apply`).
  * The plain product of an `A × K` by a `K × B` matrix over the extended reals, read at `(i, j)`, is the sum over
    the contracted coordinate of the products of the entries: for the host's product (`plainDot_apply`) and for the
    kernel's product accumulated into a zero constant (`plainMatmul_zero_apply`).
-/
import Idealize.ShloMosaic.Lib.ValueIdx
import Idealize.ShloMosaic.Lib.Pipeline.Value
import Idealize.ShloMosaic.Lib.ValueLayout
import Idealize.ShloMosaic.Lib.StackMember
import Idealize.ShloMosaic.PureOps.Ideal.Laws

noncomputable section

open scoped BigOperators

namespace Cert.LibHR

open Idealize.ShloMosaic Idealize.ShloMosaic.ValueIdx

/-! ## Broadcasts -/

/-- A vector broadcast to a one-column matrix reads the vector at the row. -/
theorem bcastCol_apply {α : Type} {a : Nat} (h : (⟨1, ![a]⟩ : Shape).BroadcastsInDim ⟨2, ![a, 1]⟩ ![0])
    (x : (⟨1, ![a]⟩ : Shape).Idx → α) (i : Fin a) (u : Fin 1) :
    broadcastInDim ⟨2, ![a, 1]⟩ ![0] h x (ix2 i u) = x (ix1 i) :=
  broadcastInDim_apply _ h x (ix2 i u) (ix1 i) (fun b => match b with
    | ⟨0, _⟩ => by
      show i.val = if a = 1 then 0 else i.val
      split
      · have := i.isLt; omega
      · rfl)

/-- A scalar broadcast to any shape reads the scalar. -/
theorem bcastScalar_apply {α : Type} {t : Shape} (h : (⟨0, ![]⟩ : Shape).BroadcastsInDim t ![])
    (x : (⟨0, ![]⟩ : Shape).Idx → α) (j : t.Idx) : broadcastInDim t ![] h x j = x ix0 :=
  broadcastInDim_apply _ h x j ix0 (fun b => b.elim0)

/-- A vector broadcast to a one-row matrix and then down the rows reads the vector at the column. -/
theorem bcastRow_apply {α : Type} {a b : Nat} (h1 : (⟨1, ![b]⟩ : Shape).BroadcastsInDim ⟨2, ![1, b]⟩ ![1])
    (h2 : (⟨2, ![1, b]⟩ : Shape).BroadcastsInDim ⟨2, ![a, b]⟩ ![0, 1]) (x : (⟨1, ![b]⟩ : Shape).Idx → α)
    (i : Fin a) (j : Fin b) :
    broadcastInDim ⟨2, ![a, b]⟩ ![0, 1] h2 (broadcastInDim ⟨2, ![1, b]⟩ ![1] h1 x) (ix2 i j) = x (ix1 j) := by
  refine (broadcastInDim_apply _ h2 _ (ix2 i j) (ix2 (0 : Fin 1) j) (fun c => match c with
    | ⟨0, _⟩ => by
      show 0 = if (1 : Nat) = 1 then 0 else i.val
      rw [if_pos rfl]
    | ⟨1, _⟩ => by
      show j.val = if b = 1 then 0 else j.val
      split
      · have := j.isLt; omega
      · rfl)).trans ?_
  exact broadcastInDim_apply _ h1 x (ix2 (0 : Fin 1) j) (ix1 j) (fun c => match c with
    | ⟨0, _⟩ => by
      show j.val = if b = 1 then 0 else j.val
      split
      · have := j.isLt; omega
      · rfl)

/-! ## One row of a two-row array -/

/-- Row `r` of a `[2, E]` array, sliced out and reshaped to `[E]`, reads the array at `(r, e)`. -/
theorem rowSlice_apply {α : Type} {E : Nat} (r : Fin 2) (x : (⟨2, ![2, E]⟩ : Shape).Idx → α)
    (hs : (⟨2, ![2, E]⟩ : Shape).Slices ![r.val, 0] ⟨2, ![1, E]⟩)
    (hc : (⟨2, ![1, E]⟩ : Shape).ShapeCasts ⟨1, ![E]⟩) (e : Fin E) :
    shapeCast ⟨1, ![E]⟩ (extractStridedSlice ⟨2, ![1, E]⟩ ![r.val, 0] x hs) hc (ix1 e) = x (ix2 r e) := by
  refine (shapeCast_apply _ hc (ix1 e) (ix2 (0 : Fin 1) e) (by
    rw [Shape.rowMajor_val_two, Shape.rowMajor_val_one]
    show 0 * E + e.val = e.val
    omega)).trans ?_
  exact extractStridedSlice_apply ![r.val, 0] x hs (ix2 (0 : Fin 1) e) (ix2 r e) (fun c => match c with
    | ⟨0, _⟩ => by show r.val = r.val + 0; omega
    | ⟨1, _⟩ => by show e.val = 0 + e.val; omega)

/-! ## A plain matrix product -/

/-- The dimension numbers of the plain product of an `A × K` by a `K × B` matrix: the left operand's columns
    contracted with the right operand's rows, no batch axes. -/
abbrev plainDotDims (A K B : Nat)
    (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ where
  lhsContracting := [1]
  rhsContracting := [0]
  lhsNonContracting := [0]
  rhsNonContracting := [1]
  lhsBatch := []
  rhsBatch := []
  wf := wf

/-- They are the library's plain dimension numbers. -/
theorem plainDotDims_eq (A K B : Nat)
    (wf : DotDims.WF ⟨2, ![A, K]⟩ ⟨2, ![K, B]⟩ ⟨2, ![A, B]⟩ [1] [0] [0] [1] [] []) :
    plainDotDims A K B wf = DotDims.plain A K B := rfl

/-- THE HOST'S PLAIN PRODUCT READ AT `(i, j)`, over the extended reals: the sum over the contracted coordinate of
    the products of the entries. -/
theorem plainDot_apply {φ₁ φ₂ : FTy} (A K B : Nat)
    (wf : DotDims.WF ⟨2, ![A, K]⟩ ⟨2, ![K, B]⟩ ⟨2, ![A, B]⟩ [1] [0] [0] [1] [] [])
    (l : (⟨2, ![A, K]⟩ : Shape).Idx → EReal) (r : (⟨2, ![K, B]⟩ : Shape).Idx → EReal) (i : Fin A) (j : Fin B) :
    Host.dotGeneral (F := Ideal) (φ₁ := φ₁) (φ₂ := φ₂) (plainDotDims A K B wf) none l r (ix2 i j)
      = ∑ k : Fin K, l (ix2 i k) * r (ix2 k j) :=
  StackMember.dotGeneral_plain_apply (φ₁ := φ₁) (φ₂ := φ₂) none l r i j

/-- THE KERNEL'S PLAIN PRODUCT INTO A ZERO ACCUMULATOR READ AT `(i, j)`, over the extended reals: the same sum. -/
theorem plainMatmul_zero_apply {φ₁ φ₂ : FTy} (A K B : Nat)
    (wf : DotDims.WF ⟨2, ![A, K]⟩ ⟨2, ![K, B]⟩ ⟨2, ![A, B]⟩ [1] [0] [0] [1] [] [])
    (l : (⟨2, ![A, K]⟩ : Shape).Idx → EReal) (r : (⟨2, ![K, B]⟩ : Shape).Idx → EReal) (i : Fin A) (j : Fin B) :
    FloatOps.matmul (F := Ideal) (φ₁ := φ₁) (φ₂ := φ₂) (plainDotDims A K B wf) none l r
        (constant (F := Ideal) ⟨2, ![A, B]⟩ .f32 0x00000000#32) (ix2 i j)
      = ∑ k : Fin K, l (ix2 i k) * r (ix2 k j) := by
  rw [Ideal.matmul_constant_zero_apply, ← Ideal.dotGeneral_apply (plainDotDims A K B wf) none .single l r (ix2 i j)]
  exact plainDot_apply (φ₁ := φ₁) (φ₂ := φ₂) A K B wf l r i j

end Cert.LibHR

end
-- ==== Proof.LibLayoutCols.lean ====
/-
  Layout operations of a host program read at one index, for arrays of rank one and two given by coordinates.

  A broadcast, a slice of columns, a reversal of the columns, a concatenation of columns and a gather of whole columns
  each read, at the entry (n, k) of their result, one entry of one operand. The lemmas name that entry by its
  coordinates, so that a value at an index is rewritten operation by operation down to the arrays the program starts from.
-/
import Idealize.ShloMosaic.Lib.Pipeline.Value
import Idealize.ShloMosaic.Lib.ValueIdx

noncomputable section

namespace Cert.RefLayout

open Idealize.ShloMosaic Idealize.ShloMosaic.ValueIdx

variable {α : Type}

/-! ## Broadcasts -/

/-- A scalar broadcast to any shape reads the scalar at every index. -/
theorem bcast0_apply (t : Shape) (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 fun a => a.elim0

/-- A length-N array made the one column of an [N, 1] array: entry (n, 0) is entry n. -/
theorem bcast_col_apply {N : Nat} (h : (⟨1, ![N]⟩ : Shape).BroadcastsInDim ⟨2, ![N, 1]⟩ ![0])
    (x : (⟨1, ![N]⟩ : Shape).Idx → α) (n : Fin N) (k : Fin 1) :
    broadcastInDim ⟨2, ![N, 1]⟩ ![0] h x (ix2 n k) = x (ix1 n) :=
  broadcastInDim_apply _ h x _ (ix1 n) fun a => match a with
    | ⟨0, _⟩ => by
      show n.val = if N = 1 then 0 else n.val
      split
      · have := n.isLt; omega
      · rfl

/-- A length-W array made the one row of a [1, W] array: entry (0, k) is entry k. -/
theorem bcast_row_apply {W : Nat} (h : (⟨1, ![W]⟩ : Shape).BroadcastsInDim ⟨2, ![1, W]⟩ ![1])
    (x : (⟨1, ![W]⟩ : Shape).Idx → α) (n : Fin 1) (k : Fin W) :
    broadcastInDim ⟨2, ![1, W]⟩ ![1] h x (ix2 n k) = x (ix1 k) :=
  broadcastInDim_apply _ h x _ (ix1 k) fun a => match a with
    | ⟨0, _⟩ => by
      show k.val = if W = 1 then 0 else k.val
      split
      · have := k.isLt; omega
      · rfl

/-- A [1, W] array repeated down N rows: entry (n, k) is entry (0, k). -/
theorem bcast_rows_apply {N W : Nat} (h : (⟨2, ![1, W]⟩ : Shape).BroadcastsInDim ⟨2, ![N, W]⟩ ![0, 1])
    (x : (⟨2, ![1, W]⟩ : Shape).Idx → α) (n : Fin N) (k : Fin W) :
    broadcastInDim ⟨2, ![N, W]⟩ ![0, 1] h x (ix2 n k) = x (ix2 0 k) :=
  broadcastInDim_apply _ h x _ (ix2 0 k) fun a => match a with
    | ⟨0, _⟩ => rfl
    | ⟨1, _⟩ => by
      show k.val = if W = 1 then 0 else k.val
      split
      · have := k.isLt; omega
      · rfl

/-- An [N, 1] array repeated across W columns: entry (n, k) is entry (n, 0). -/
theorem bcast_cols_apply {N W : Nat} (h : (⟨2, ![N, 1]⟩ : Shape).BroadcastsInDim ⟨2, ![N, W]⟩ ![0, 1])
    (x : (⟨2, ![N, 1]⟩ : Shape).Idx → α) (n : Fin N) (k : Fin W) :
    broadcastInDim ⟨2, ![N, W]⟩ ![0, 1] h x (ix2 n k) = x (ix2 n 0) :=
  broadcastInDim_apply _ h x _ (ix2 n 0) fun a => match a with
    | ⟨0, _⟩ => by
      show n.val = if N = 1 then 0 else n.val
      split
      · have := n.isLt; omega
      · rfl
    | ⟨1, _⟩ => rfl

/-! ## A slice of columns, and the columns reversed -/

/-- Columns o, …, o + W - 1 of an [N, M] array: entry (n, k) is entry (n, o + k). -/
theorem slice_cols_apply {N M W : Nat} (o : Nat) (h : (⟨2, ![N, M]⟩ : Shape).Slices ![0, o] ⟨2, ![N, W]⟩)
    (x : (⟨2, ![N, M]⟩ : Shape).Idx → α) (n : Fin N) (k : Fin W) (hk : o + k.val < M) :
    extractStridedSlice ⟨2, ![N, W]⟩ ![0, o] x h (ix2 n k) = x (ix2 n ⟨o + k.val, hk⟩) :=
  extractStridedSlice_apply _ x h _ _ fun a => match a with
    | ⟨0, _⟩ => by show n.val = 0 + n.val; omega
    | ⟨1, _⟩ => rfl

/-- The columns of an [N, W] array in the opposite order: entry (n, k) is entry (n, W - 1 - k). -/
theorem reverse_cols_apply {N W : Nat} (x : (⟨2, ![N, W]⟩ : Shape).Idx → α) (n : Fin N) (k : Fin W) :
    Host.reverse (s := ⟨2, ![N, W]⟩) [1] x (ix2 n k) = x (ix2 n k.rev) := by
  unfold Host.reverse
  refine congrArg x (funext fun a => ?_)
  match a with
  | ⟨0, _⟩ => rfl
  | ⟨1, _⟩ => rfl

/-! ## Columns laid side by side -/

/-- W arrays of shape [N, 1] concatenated along the columns: entry (n, k) is entry (n, 0) of the k-th. -/
theorem cat_cols_apply {N W : Nat} (f : Fin W → ((⟨2, ![N, 1]⟩ : Shape).Idx → α))
    (h : Shape.Concatenates ((List.ofFn fun c : Fin W => (⟨⟨2, ![N, 1]⟩, f c⟩ : (s : Shape) × (s.Idx → α))).map (·.1)) ⟨2, ![N, W]⟩ 1)
    (n : Fin N) (k : Fin W) :
    concatenate ⟨2, ![N, W]⟩ 1 (List.ofFn fun c : Fin W => (⟨⟨2, ![N, 1]⟩, f c⟩ : (s : Shape) × (s.Idx → α))) h (ix2 n k)
      = f k (ix2 n 0) :=
  concatenate_ofFn_unit_apply (t := ⟨2, ![N, W]⟩) (s₁ := ⟨2, ![N, 1]⟩) 1 f h rfl rfl (ix2 n k) k rfl (ix2 n 0)
    fun b hb => match b with
      | ⟨0, _⟩ => rfl
      | ⟨1, _⟩ => absurd rfl hb

/-- Two to nine columns side by side, as literal lists: entry (n, k) is entry (n, 0) of the k-th column. -/
theorem cat2_apply {N : Nat} (c0 c1 : (⟨2, ![N, 1]⟩ : Shape).Idx → α) (h) (n : Fin N) (k : Fin 2) :
    concatenate ⟨2, ![N, 2]⟩ 1 [⟨⟨2, ![N, 1]⟩, c0⟩, ⟨⟨2, ![N, 1]⟩, c1⟩] h (ix2 n k) = ![c0, c1] k (ix2 n 0) :=
  cat_cols_apply ![c0, c1] h n k

theorem cat3_apply {N : Nat} (c0 c1 c2 : (⟨2, ![N, 1]⟩ : Shape).Idx → α) (h) (n : Fin N) (k : Fin 3) :
    concatenate ⟨2, ![N, 3]⟩ 1 [⟨⟨2, ![N, 1]⟩, c0⟩, ⟨⟨2, ![N, 1]⟩, c1⟩, ⟨⟨2, ![N, 1]⟩, c2⟩] h (ix2 n k) = ![c0, c1, c2] k (ix2 n 0) :=
  cat_cols_apply ![c0, c1, c2] h n k

theorem cat4_apply {N : Nat} (c0 c1 c2 c3 : (⟨2, ![N, 1]⟩ : Shape).Idx → α) (h) (n : Fin N) (k : Fin 4) :
    concatenate ⟨2, ![N, 4]⟩ 1 [⟨⟨2, ![N, 1]⟩, c0⟩, ⟨⟨2, ![N, 1]⟩, c1⟩, ⟨⟨2, ![N, 1]⟩, c2⟩, ⟨⟨2, ![N, 1]⟩, c3⟩] h (ix2 n k) = ![c0, c1, c2, c3] k (ix2 n 0) :=
  cat_cols_apply ![c0, c1, c2, c3] h n k

theorem cat5_apply {N : Nat} (c0 c1 c2 c3 c4 : (⟨2, ![N, 1]⟩ : Shape).Idx → α) (h) (n : Fin N) (k : Fin 5) :
    concatenate ⟨2, ![N, 5]⟩ 1 [⟨⟨2, ![N, 1]⟩, c0⟩, ⟨⟨2, ![N, 1]⟩, c1⟩, ⟨⟨2, ![N, 1]⟩, c2⟩, ⟨⟨2, ![N, 1]⟩, c3⟩, ⟨⟨2, ![N, 1]⟩, c4⟩] h (ix2 n k) = ![c0, c1, c2, c3, c4] k (ix2 n 0) :=
  cat_cols_apply ![c0, c1, c2, c3, c4] h n k

theorem cat6_apply {N : Nat} (c0 c1 c2 c3 c4 c5 : (⟨2, ![N, 1]⟩ : Shape).Idx → α) (h) (n : Fin N) (k : Fin 6) :
    concatenate ⟨2, ![N, 6]⟩ 1 [⟨⟨2, ![N, 1]⟩, c0⟩, ⟨⟨2, ![N, 1]⟩, c1⟩, ⟨⟨2, ![N, 1]⟩, c2⟩, ⟨⟨2, ![N, 1]⟩, c3⟩, ⟨⟨2, ![N, 1]⟩, c4⟩, ⟨⟨2, ![N, 1]⟩, c5⟩] h (ix2 n k) = ![c0, c1, c2, c3, c4, c5] k (ix2 n 0) :=
  cat_cols_apply ![c0, c1, c2, c3, c4, c5] h n k

theorem cat7_apply {N : Nat} (c0 c1 c2 c3 c4 c5 c6 : (⟨2, ![N, 1]⟩ : Shape).Idx → α) (h) (n : Fin N) (k : Fin 7) :
    concatenate ⟨2, ![N, 7]⟩ 1 [⟨⟨2, ![N, 1]⟩, c0⟩, ⟨⟨2, ![N, 1]⟩, c1⟩, ⟨⟨2, ![N, 1]⟩, c2⟩, ⟨⟨2, ![N, 1]⟩, c3⟩, ⟨⟨2, ![N, 1]⟩, c4⟩, ⟨⟨2, ![N, 1]⟩, c5⟩, ⟨⟨2, ![N, 1]⟩, c6⟩] h (ix2 n k) = ![c0, c1, c2, c3, c4, c5, c6] k (ix2 n 0) :=
  cat_cols_apply ![c0, c1, c2, c3, c4, c5, c6] h n k

theorem cat8_apply {N : Nat} (c0 c1 c2 c3 c4 c5 c6 c7 : (⟨2, ![N, 1]⟩ : Shape).Idx → α) (h) (n : Fin N) (k : Fin 8) :
    concatenate ⟨2, ![N, 8]⟩ 1 [⟨⟨2, ![N, 1]⟩, c0⟩, ⟨⟨2, ![N, 1]⟩, c1⟩, ⟨⟨2, ![N, 1]⟩, c2⟩, ⟨⟨2, ![N, 1]⟩, c3⟩, ⟨⟨2, ![N, 1]⟩, c4⟩, ⟨⟨2, ![N, 1]⟩, c5⟩, ⟨⟨2, ![N, 1]⟩, c6⟩, ⟨⟨2, ![N, 1]⟩, c7⟩] h (ix2 n k) = ![c0, c1, c2, c3, c4, c5, c6, c7] k (ix2 n 0) :=
  cat_cols_apply ![c0, c1, c2, c3, c4, c5, c6, c7] h n k

theorem cat9_apply {N : Nat} (c0 c1 c2 c3 c4 c5 c6 c7 c8 : (⟨2, ![N, 1]⟩ : Shape).Idx → α) (h) (n : Fin N) (k : Fin 9) :
    concatenate ⟨2, ![N, 9]⟩ 1 [⟨⟨2, ![N, 1]⟩, c0⟩, ⟨⟨2, ![N, 1]⟩, c1⟩, ⟨⟨2, ![N, 1]⟩, c2⟩, ⟨⟨2, ![N, 1]⟩, c3⟩, ⟨⟨2, ![N, 1]⟩, c4⟩, ⟨⟨2, ![N, 1]⟩, c5⟩, ⟨⟨2, ![N, 1]⟩, c6⟩, ⟨⟨2, ![N, 1]⟩, c7⟩, ⟨⟨2, ![N, 1]⟩, c8⟩] h (ix2 n k) = ![c0, c1, c2, c3, c4, c5, c6, c7, c8] k (ix2 n 0) :=
  cat_cols_apply ![c0, c1, c2, c3, c4, c5, c6, c7, c8] h n k

/-! ## Three blocks of columns side by side -/

/-- The first block of [A | B | C]. -/
theorem cat3blocks_left {N a b c : Nat} (xa : (⟨2, ![N, a]⟩ : Shape).Idx → α) (xb : (⟨2, ![N, b]⟩ : Shape).Idx → α)
    (xc : (⟨2, ![N, c]⟩ : Shape).Idx → α) (h) (n : Fin N) (k : Fin (a + b + c)) (hk : k.val < a) :
    concatenate ⟨2, ![N, a + b + c]⟩ 1 [⟨⟨2, ![N, a]⟩, xa⟩, ⟨⟨2, ![N, b]⟩, xb⟩, ⟨⟨2, ![N, c]⟩, xc⟩] h (ix2 n k) = xa (ix2 n ⟨k.val, hk⟩) :=
  concatenate_apply_piece 1 _ h (ix2 n k) 0 (by simp) ⟨2, ![N, a]⟩ xa rfl rfl 0 rfl (ix2 n ⟨k.val, hk⟩)
    (fun b hb => match b with
      | ⟨0, _⟩ => rfl
      | ⟨1, _⟩ => absurd rfl hb)
    (by show 0 + k.val = k.val; omega)

/-- The middle block of [A | B | C]. -/
theorem cat3blocks_mid {N a b c : Nat} (xa : (⟨2, ![N, a]⟩ : Shape).Idx → α) (xb : (⟨2, ![N, b]⟩ : Shape).Idx → α)
    (xc : (⟨2, ![N, c]⟩ : Shape).Idx → α) (h) (n : Fin N) (k : Fin (a + b + c)) (hk : a ≤ k.val) (hk' : k.val - a < b) :
    concatenate ⟨2, ![N, a + b + c]⟩ 1 [⟨⟨2, ![N, a]⟩, xa⟩, ⟨⟨2, ![N, b]⟩, xb⟩, ⟨⟨2, ![N, c]⟩, xc⟩] h (ix2 n k) = xb (ix2 n ⟨k.val - a, hk'⟩) :=
  concatenate_apply_piece 1 _ h (ix2 n k) 1 (by simp) ⟨2, ![N, b]⟩ xb rfl rfl a (by simp) (ix2 n ⟨k.val - a, hk'⟩)
    (fun b hb => match b with
      | ⟨0, _⟩ => rfl
      | ⟨1, _⟩ => absurd rfl hb)
    (by show a + (k.val - a) = k.val; omega)

/-- The last block of [A | B | C]. -/
theorem cat3blocks_right {N a b c : Nat} (xa : (⟨2, ![N, a]⟩ : Shape).Idx → α) (xb : (⟨2, ![N, b]⟩ : Shape).Idx → α)
    (xc : (⟨2, ![N, c]⟩ : Shape).Idx → α) (h) (n : Fin N) (k : Fin (a + b + c)) (hk : a + b ≤ k.val) :
    concatenate ⟨2, ![N, a + b + c]⟩ 1 [⟨⟨2, ![N, a]⟩, xa⟩, ⟨⟨2, ![N, b]⟩, xb⟩, ⟨⟨2, ![N, c]⟩, xc⟩] h (ix2 n k)
      = xc (ix2 n ⟨k.val - (a + b), by have := k.isLt; omega⟩) :=
  concatenate_apply_piece 1 _ h (ix2 n k) 2 (by simp) ⟨2, ![N, c]⟩ xc rfl rfl (a + b) (by simp) (ix2 n ⟨k.val - (a + b), by have := k.isLt; omega⟩)
    (fun b hb => match b with
      | ⟨0, _⟩ => rfl
      | ⟨1, _⟩ => absurd rfl hb)
    (by show a + b + (k.val - (a + b)) = k.val; omega)

/-! ## A gather of whole columns -/

/-- The dimension numbers of a gather of whole columns: operand [N, M], start indices [W, 1], result [N, W];
    the one offset axis is the rows, the columns are collapsed and indexed. -/
abbrev colDims (N M W : Nat) (wf : GatherDims.WF ⟨2, ![N, M]⟩ ⟨2, ![W, 1]⟩ ⟨2, ![N, W]⟩ [0] [1] [] [1] [] 1 ![N, 1]) :
    GatherDims ⟨2, ![N, M]⟩ ⟨2, ![W, 1]⟩ ⟨2, ![N, W]⟩ where
  offsetDims := [0]
  collapsedSliceDims := [1]
  operandBatchingDims := []
  startIndicesBatchingDims := []
  startIndexMap := [1]
  indexVectorDim := 1
  sliceSizes := ![N, 1]
  wf := wf

/-- The gather read at (n, k): row n of the operand's column idx[k, 0], the start index read signed and clamped
    into [0, M - 1]. -/
theorem gather_cols_apply {N M W w : Nat} (hM : 0 < M)
    (wf : GatherDims.WF ⟨2, ![N, M]⟩ ⟨2, ![W, 1]⟩ ⟨2, ![N, W]⟩ [0] [1] [] [1] [] 1 ![N, 1])
    (x : (⟨2, ![N, M]⟩ : Shape).Idx → α) (idx : IVec ⟨2, ![W, 1]⟩ w) (n : Fin N) (k : Fin W) :
    Host.gather (colDims N M W wf) x idx (ix2 n k)
      = x (ix2 n ⟨min (idx (ix2 k 0)).toInt.toNat (M - 1), by omega⟩) := by
  unfold Host.gather
  congr 1
  funext a
  refine Fin.ext ?_
  match a with
  | ⟨0, _⟩ =>
    show (colDims N M W wf).start (ix2 n k) idx 0 + (colDims N M W wf).batchCoord (ix2 n k) 0
      + (colDims N M W wf).offCoord (ix2 n k) 0 = n.val
    rw [GatherDims.batchCoord_eq_zero _ _ _ List.not_mem_nil]
    have hs : (colDims N M W wf).start (ix2 n k) idx 0 = 0 := by
      unfold GatherDims.start
      rw [dif_neg (show ¬ (0 : Fin 2) ∈ ([1] : List (Fin 2)) by decide)]
    have ho : (colDims N M W wf).offCoord (ix2 n k) 0 = n.val := by
      unfold GatherDims.offCoord
      rw [dif_pos ((GatherDims.mem_sKept _ _).2 ⟨(show ¬ (0 : Fin 2) ∈ ([1] : List (Fin 2)) by decide), List.not_mem_nil⟩)]
      rfl
    rw [hs, ho]; omega
  | ⟨1, _⟩ =>
    show (colDims N M W wf).start (ix2 n k) idx 1 + (colDims N M W wf).batchCoord (ix2 n k) 1
      + (colDims N M W wf).offCoord (ix2 n k) 1 = min (idx (ix2 k 0)).toInt.toNat (M - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colDims N M W wf).startIndexMap from List.mem_singleton.mpr rfl)]
    have hsi : (colDims N M W wf).siIdx (ix2 n k) ⟨List.idxOf (1 : Fin 2) (colDims N M W wf).startIndexMap,
        List.idxOf_lt_length_iff.2 (List.mem_singleton.mpr rfl)⟩ = ix2 k 0 := by
      funext b; refine Fin.ext ?_
      match b with
      | ⟨0, _⟩ => rfl
      | ⟨1, _⟩ => rfl
    rw [hsi]
    rfl

/-! ## The host's quotient at an index -/

/-- On the extended reals the host's quotient of two arrays is, entry by entry, the total quotient of the entries. -/
theorem hostDivf_apply {s : Shape} {φ : FTy} (a b : FVec Ideal s φ) (i : s.Idx) : Host.divf a b i = Ideal.div (a i) (b i) := rfl

/-! ## A table of words read at an index -/

/-- A length-W table given by its entries in row-major order, read at entry k. -/
theorem table_apply (W : Nat) {β : Type} (hW : (⟨1, ![W]⟩ : Shape).numel = W) (T : Fin W → β) (k : Fin W) :
    T (((⟨1, ![W]⟩ : Shape).rowMajor (ix1 k)).cast hW) = T k :=
  congrArg T (Fin.ext (Shape.rowMajor_val_one _))

end Cert.RefLayout

end
-- ==== Proof.PayloadMean.lean ====
/-
  The value one launch stores, read at an index, over the extended reals.

  A launch holds a block of 512 rows of a path matrix A (512 × 4096), the whole widened table e (4096 × 128) and the
  same 512 rows of e. It forms the product acc = A · e, takes column 64 of acc as each row's total weight w, and stores
      (e_r + acc_r) · (1 / (w_r + 1))
  in every column but column 64, where it stores the constant one. Read at row p and column q this is the widened
  layer's formula: the product read at an index is a sum over the contracted coordinate, the column slice, the two
  shape casts and the broadcast along the columns each read one entry of their operand, and the column mask compares
  the column number with 64.
-/
import proofs.«159740_g15590731285067_cont_week2b_85_2_alg».proof.Proof.Gen.KernelIdeal.Skeleton
import proofs.«159740_g15590731285067_cont_week2b_85_2_alg».proof.Proof.Spec
import proofs.«159740_g15590731285067_cont_week2b_85_2_alg».proof.Proof.LibLayout
import proofs.«159740_g15590731285067_cont_week2b_85_2_alg».proof.Proof.LibHostRead
import proofs.«159740_g15590731285067_cont_week2b_85_2_alg».proof.Proof.LibLayoutCols

noncomputable section

open scoped BigOperators

namespace Cert.PathMean.Pay

open Cert.KernelIdeal Idealize.ShloMosaic Idealize.ShloMosaic.ValueIdx

/-- A one-column matrix `[a, 1]` cast to the vector `[a]` reads, at `i`, the matrix at `(i, 0)`. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- The product of the block of rows by the table, accumulated into zero, read at `(p, q)`: the sum over the
    contracted coordinate. -/
theorem acc_apply (a : FVec Ideal S512x4096 .f32) (e : FVec Ideal S4096x128 .f32) (p : Fin 512) (q : Fin 128) :
    matmul (F := Ideal) dot_S512x4096_S4096x128_S512x128_1_0_0_1_n_n none a e
        (constant (F := Ideal) S512x128 .f32 0x00000000#32) (ix2 p q)
      = ∑ j : Fin 4096, a (ix2 p j) * e (ix2 j q) :=
  Cert.LibHR.plainMatmul_zero_apply 512 4096 128 Gen.dot_S512x4096_S4096x128_S512x128_1_0_0_1_n_n_wf a e p q

/-- The column mask at `(p, q)`: the column number compared with 64. -/
theorem mask_apply (h : S512x128.Iotas .tc 32 [1]) (p : Fin 512) (q : Fin 128) :
    cmpi .eq (iota .tc S512x128 32 [1] h) (broadcast S512x128 64#32) (ix2 p q) = if q.val = 64 then 1#1 else 0#1 := by
  show IntOp.cmpi .eq (iota .tc S512x128 32 [1] h (ix2 p q)) 64#32 = _
  rw [iota_single_apply]
  show BitVec.ofBool (BitVec.ofNat 32 q.val == 64#32) = _
  by_cases hq : q.val = 64
  · rw [if_pos hq, hq]; rfl
  · rw [if_neg hq]
    have hne : ¬ (BitVec.ofNat 32 q.val = 64#32) := fun hc => by
      have h2 := congrArg BitVec.toNat hc
      rw [BitVec.toNat_ofNat, Nat.mod_eq_of_lt (by have := q.isLt; omega)] at h2
      exact hq h2
    rw [beq_eq_false_iff_ne.2 hne]; rfl

/-- The one-plus-weight reciprocal, broadcast along the columns, read at `(p, q)`. -/
theorem scale_apply (M : FVec Ideal S512x128 .f32) (hs : S512x128.Slices ![0, 64] S512x1) (hc1 : S512x1.ShapeCasts S512)
    (hc2 : S512.ShapeCasts S512x1) (hb : S512x1.Broadcasts S512x128) (p : Fin 512) (q : Fin 128) :
    broadcastTo S512x128
        (shapeCast S512x1
          (divf (broadcast S512 (Scalar.ofBits (F := Ideal) .f32 0x3F800000#32))
            (addf (shapeCast S512 (extractStridedSlice S512x1 ![0, 64] M hs) hc1)
              (broadcast S512 (Scalar.ofBits (F := Ideal) .f32 0x3F800000#32)))) hc2) hb (ix2 p q)
      = Ideal.div Cert.PathMean.one (M (ix2 p (64 : Fin 128)) + Cert.PathMean.one) := by
  refine (Cert.Attn.Layout.broadcastTo_a1_ab_apply _ hb p q).trans ?_
  refine (Cert.Attn.Layout.shapeCast_a_a1_apply _ hc2 p (0 : Fin 1)).trans ?_
  refine (divf_apply _ _ _).trans ?_
  refine congrArg₂ Ideal.div rfl ?_
  refine (addf_apply _ _ _).trans ?_
  refine congrArg₂ (· + ·) ?_ rfl
  refine (shapeCast_a1_a_apply _ hc1 p).trans ?_
  exact Cert.RefLayout.slice_cols_apply 64 hs M p (0 : Fin 1) (by decide)

/-- THE STORED VALUE OF THE FIRST LAUNCH'S BODY AT ROW `p`, COLUMN `q`: one in column 64, the widened layer's formula in every
    other column. -/
theorem pay0_apply (a : Vec Ideal S512x4096 .f32) (e : Vec Ideal S4096x128 .f32) (er : Vec Ideal S512x128 .f32)
    (p : Fin 512) (q : Fin 128) :
    Cert.KernelIdeal.Gen.k0_pay1 (F := Ideal) a e er (ix2 p q)
      = if q.val = 64 then Cert.PathMean.one
        else (er (ix2 p q) + ∑ j : Fin 4096, a (ix2 p j) * e (ix2 j q))
              * Ideal.div Cert.PathMean.one ((∑ j : Fin 4096, a (ix2 p j) * e (ix2 j (64 : Fin 128))) + Cert.PathMean.one) := by
  unfold Gen.k0_pay1
  refine (select_apply _ _ _ _).trans ?_
  rw [mask_apply]
  by_cases hq : q.val = 64
  · rw [if_pos hq, if_pos hq, select_one]; rfl
  · rw [if_neg hq, if_neg hq, select_zero]
    refine (mulf_apply _ _ _).trans ?_
    rw [shapeCast_self a, shapeCast_self e]
    refine congrArg₂ (· * ·) ?_ ?_
    · refine (addf_apply _ _ _).trans ?_
      refine congrArg₂ (· + ·) (congrFun (shapeCast_self er _) _) (acc_apply a e p q)
    · refine (scale_apply _ _ _ _ _ p q).trans ?_
      rw [acc_apply a e p (64 : Fin 128)]

/-- THE STORED VALUE OF THE SECOND LAUNCH'S BODY AT ROW `p`, COLUMN `q`: the same arithmetic, the same value. -/
theorem pay1_apply (a : Vec Ideal S512x4096 .f32) (e : Vec Ideal S4096x128 .f32) (er : Vec Ideal S512x128 .f32)
    (p : Fin 512) (q : Fin 128) :
    Cert.KernelIdeal.Gen.k1_pay1 (F := Ideal) a e er (ix2 p q)
      = if q.val = 64 then Cert.PathMean.one
        else (er (ix2 p q) + ∑ j : Fin 4096, a (ix2 p j) * e (ix2 j q))
              * Ideal.div Cert.PathMean.one ((∑ j : Fin 4096, a (ix2 p j) * e (ix2 j (64 : Fin 128))) + Cert.PathMean.one) :=
  pay0_apply a e er p q

end Cert.PathMean.Pay

end
-- ==== Proof.IdealArray.lean ====
/-
  From blocks to the array, for both launches of the layer kernel.

  A launch runs over 8 grid points. Point t is handed the whole widened table e (4096 × 128), rows 512·t … 512·t + 511
  of a path matrix A (4096 × 4096), and writes back rows 512·t … 512·t + 511 of the result. What it writes at row p of
  its block and column q is the widened layer's formula at row 512·t + p: one in column 64, and elsewhere
      (e_r + Σ_j A_rj · e_j) · (1 / (Σ_j A_rj · e_j,64 + 1)).
  So every point writes a block of ONE function of the two arrays, the eight blocks tile the 4096 rows (row r lies in
  the block of point r / 512), and the result array ends holding that function.
-/
import proofs.«159740_g15590731285067_cont_week2b_85_2_alg».proof.Proof.IdealLaunch0
import proofs.«159740_g15590731285067_cont_week2b_85_2_alg».proof.Proof.IdealLaunch1
import proofs.«159740_g15590731285067_cont_week2b_85_2_alg».proof.Proof.PayloadMean
import proofs.«159740_g15590731285067_cont_week2b_85_2_alg».proof.Proof.Spec
import Idealize.ShloMosaic.Lib.Pipeline.Value

noncomputable section

open scoped BigOperators

namespace Cert.KernelIdeal.Hand

open Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-! ## Launch 0 -/

/-- The index maps over the grid: the table's block never moves, the matrix's and the result's blocks are block
    row t, and the grid coordinate the body sees is t. -/
theorem index_maps0 : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ ((grid0.coords t) 0).val = t.val ∧ t.val < 8 :=
  (by decide +kernel : ∀ t : Fin grid0.N, _)

/-- The table's block at any point is the table. -/
theorem table_block0 (c : Dev nD) (t : Fin cfg0.N) (j : Fin 4096) (q : Fin 128) :
    (blk0 V c 0 t : Vec Ideal S4096x128 .f32) (ix2 j q) = (V c main_v2 : S4096x128.Idx → EReal) (ix2 j q) := by
  obtain ⟨e0, e1, -⟩ := index_maps0 t
  unfold blk0
  rw [View.read_apply]
  show V c main_v2 _ = V c main_v2 _
  congr 1
  funext a
  apply Fin.ext
  match a with
  | ⟨0, _⟩ =>
    show win0_0.index t (0 : Fin 2) * 4096 + 1 * j.val = j.val
    rw [e0]; omega
  | ⟨1, _⟩ =>
    show win0_0.index t (1 : Fin 2) * 128 + 1 * q.val = q.val
    rw [e1]; omega

/-- The matrix's block at point t is rows 512·t … of the matrix. -/
theorem rows_block0 (c : Dev nD) (t : Fin cfg0.N) (p : Fin 512) (j : Fin 4096) (r : Fin 4096)
    (hr : r.val = 512 * t.val + p.val) :
    (blk0 V c 1 t : Vec Ideal S512x4096 .f32) (ix2 p j) = (V c main_v4 : S4096x4096.Idx → EReal) (ix2 r j) := by
  obtain ⟨-, -, e0, e1, -⟩ := index_maps0 t
  unfold blk0
  rw [View.read_apply]
  show V c main_v4 _ = V c main_v4 _
  congr 1
  funext a
  apply Fin.ext
  match a with
  | ⟨0, _⟩ =>
    show win0_1.index t (0 : Fin 2) * 512 + 1 * p.val = r.val
    rw [e0, hr]; omega
  | ⟨1, _⟩ =>
    show win0_1.index t (1 : Fin 2) * 4096 + 1 * j.val = j.val
    rw [e1]; omega

/-- The residual rows the body reads out of the table at grid coordinate i are rows 512·i … of the table. -/
theorem residual0_apply (i : grid0.Coords) (e : Vec Ideal S4096x128 .f32) (p : Fin 512) (q : Fin 128) (r : Fin 4096)
    (hr : r.val = 512 * (i 0).val + p.val) :
    View.ld e (rectR0 i) (ix2 p q) = e (ix2 r q) := by
  show e ((rectR0 i).emb (ix2 p q)) = e (ix2 r q)
  congr 1
  funext a
  apply Fin.ext
  match a with
  | ⟨0, _⟩ =>
    show k0_off1 i 0 + 1 * p.val = r.val
    rw [k0_off1_eq i, hr]
    show 512 * (i 0).val + 1 * p.val = _
    omega
  | ⟨1, _⟩ =>
    show k0_off1 i 1 + 1 * q.val = q.val
    rw [k0_off1_eq i]
    show 0 + 1 * q.val = _
    omega

/-- WHAT THE BODY LEAVES at row p, column q of its block, from the table e and the rows a of the matrix, at grid
    coordinate i: the widened layer's formula at row r = 512·i + p. -/
theorem left0_apply (i : grid0.Coords) (e : Vec Ideal S4096x128 .f32) (a : Vec Ideal S512x4096 .f32)
    (p : Fin 512) (q : Fin 128) (r : Fin 4096) (hr : r.val = 512 * (i 0).val + p.val) :
    left0 (F := Ideal) i e a (ix2 p q)
      = if q.val = 64 then Cert.PathMean.one
        else (e (ix2 r q) + ∑ j : Fin 4096, a (ix2 p j) * e (ix2 j q))
              * Ideal.div Cert.PathMean.one ((∑ j : Fin 4096, a (ix2 p j) * e (ix2 j (64 : Fin 128))) + Cert.PathMean.one) := by
  unfold left0
  rw [View.canon_unit_zero zero_offsets]
  simp only [View.ld_unit_zero (S := S512x4096) zero_offsets, View.ld_unit_zero (S := S4096x128) zero_offsets]
  rw [Cert.PathMean.Pay.pay0_apply, residual0_apply i e p q r hr]

/-- The function the result array ends holding: the widened layer, along the matrix, of the table. -/
def wide0 (c : Dev nD) : S4096x128.Idx → EReal := fun i =>
  Cert.PathMean.wideLayer (fun r j => (V c main_v4 : S4096x4096.Idx → EReal) (ix2 r j))
    (fun r q => (V c main_v2 : S4096x128.Idx → EReal) (ix2 r q)) (i 0) (i 1)

/-- Row p, column q of the result's block at point t sits at row 512·t + p, column q of the array. -/
theorem result_block0_emb (t : Fin cfg0.N) (p : Fin 512) (q : Fin 128) (r : Fin 4096) (hr : r.val = 512 * t.val + p.val) :
    ((cfg0.win 2).blk t).view.emb (ix2 p q) = (ix2 r q : S4096x128.Idx) := by
  obtain ⟨-, -, -, -, e0, e1, -⟩ := index_maps0 t
  funext a
  apply Fin.ext
  match a with
  | ⟨0, _⟩ =>
    show win0_2.index t (0 : Fin 2) * 512 + 1 * p.val = r.val
    rw [e0, hr]; omega
  | ⟨1, _⟩ =>
    show win0_2.index t (1 : Fin 2) * 128 + 1 * q.val = q.val
    rw [e1]; omega

/-- WHAT POINT t WRITES BACK is block t of the widened layer of the two arrays as the launch finds them. -/
theorem flushed0_eq (c : Dev nD) (t : Fin cfg0.N) :
    (dat0 V c).flushed 2 t = ((cfg0.win 2).blk t).view.read (Elt Ideal) (wide0 V c) := by
  obtain ⟨-, -, -, -, -, -, eg, ht⟩ := index_maps0 t
  show (cfg0.win 2).cut (grid0.coords t) ((dat0 V c).after 2 t) = _
  rw [dat0_after2]
  funext y
  obtain ⟨p, q, rfl⟩ : ∃ (p : Fin 512) (q : Fin 128), y = ix2 p q := ⟨y 0, y 1, eq_ix2 y⟩
  have hlt : 512 * t.val + p.val < 4096 := by have := p.isLt; omega
  rw [View.read_apply, result_block0_emb t p q ⟨512 * t.val + p.val, hlt⟩ rfl]
  show left0 (grid0.coords t) (blk0 V c 0 t) (blk0 V c 1 t) (ix2 p q) = wide0 V c (ix2 (⟨512 * t.val + p.val, hlt⟩ : Fin 4096) q)
  rw [left0_apply (grid0.coords t) _ _ p q ⟨512 * t.val + p.val, hlt⟩ (by rw [eg])]
  simp only [table_block0, rows_block0 V c t p _ ⟨512 * t.val + p.val, hlt⟩ rfl]
  rfl

/-- An index of the result array is in point t's block iff each coordinate is in the block's range on its axis. -/
theorem mem_block0 (t : Fin cfg0.N) (i : S4096x128.Idx) :
    i ∈ ((cfg0.win 2).blk t).view.set
      ↔ ∀ a : Fin 2, win0_2.index t a * S512x128.size a ≤ (i a).val
          ∧ (i a).val < win0_2.index t a * S512x128.size a + S512x128.size a := by
  show i ∈ ((View.whole main_v5).slice (win0_2.rect t)).set ↔ _
  rw [View.set_slice_whole, Rect.mem_set_unit]
  exact Iff.rfl

/-- The blocks tile the array: row r lies in the block of point r / 512. -/
theorem cover0 (i : S4096x128.Idx) :
    ∃ t : Fin cfg0.N, (cfg0.win 2).flush t = true ∧ i ∈ ((cfg0.win 2).blk t).view.set := by
  have hi0 : (i 0).val < 4096 := (i 0).isLt
  have hi1 : (i 1).val < 128 := (i 1).isLt
  have hN : cfg0.N = 8 := N_0
  let t : Fin cfg0.N := ⟨(i 0).val / 512, by rw [hN]; omega⟩
  obtain ⟨-, -, -, -, e0, e1, -⟩ := index_maps0 t
  have ht : t.val = (i 0).val / 512 := rfl
  refine ⟨t, flush0_2 t, ?_⟩
  rw [mem_block0]
  intro a
  match a with
  | ⟨0, _⟩ =>
    show win0_2.index t (0 : Fin 2) * 512 ≤ (i 0).val ∧ (i 0).val < win0_2.index t (0 : Fin 2) * 512 + 512
    rw [e0, ht]; omega
  | ⟨1, _⟩ =>
    show win0_2.index t (1 : Fin 2) * 128 ≤ (i 1).val ∧ (i 1).val < win0_2.index t (1 : Fin 2) * 128 + 128
    rw [e1]; omega

/-- THE RESULT ARRAY after launch 0 is the widened layer, along the matrix, of the table. -/
theorem array0_eq (c : Dev nD) : (dat0 V c).arrAt 2 cfg0.N = wide0 V c :=
  (dat0 V c).arrAt_eq_of_cover 2 (wide0 V c) (fun t _ => flushed0_eq V c t) cover0

theorem array_after0 (V : (c : Dev nD) → (b : Ref sig .tc) → Buf (Elt Ideal) ((c : Thread nD τ).loc b)) (c : Dev nD)
    (r : Fin 4096) (q : Fin 128) :
    ((dat0 (F := Ideal) V c).arrAt 2 cfg0.N : S4096x128.Idx → EReal) (ix2 r q)
      = Cert.PathMean.wideLayer (fun r j => (V c main_v4 : S4096x4096.Idx → EReal) (ix2 r j))
          (fun r q => (V c main_v2 : S4096x128.Idx → EReal) (ix2 r q)) r q :=
  congrFun (array0_eq V c) (ix2 r q)

/-! ## Launch 1 -/

/-- The index maps over the grid: the table's block never moves, the matrix's and the result's blocks are block
    row t, and the grid coordinate the body sees is t. -/
theorem index_maps1 : ∀ t : Fin cfg1.N,
    win1_0.index t (0 : Fin 2) = 0 ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ ((grid1.coords t) 0).val = t.val ∧ t.val < 8 :=
  (by decide +kernel : ∀ t : Fin grid1.N, _)

/-- The table's block at any point is the table. -/
theorem table_block1 (c : Dev nD) (t : Fin cfg1.N) (j : Fin 4096) (q : Fin 128) :
    (blk1 V c 0 t : Vec Ideal S4096x128 .f32) (ix2 j q) = (V c main_v5 : S4096x128.Idx → EReal) (ix2 j q) := by
  obtain ⟨e0, e1, -⟩ := index_maps1 t
  unfold blk1
  rw [View.read_apply]
  show V c main_v5 _ = V c main_v5 _
  congr 1
  funext a
  apply Fin.ext
  match a with
  | ⟨0, _⟩ =>
    show win1_0.index t (0 : Fin 2) * 4096 + 1 * j.val = j.val
    rw [e0]; omega
  | ⟨1, _⟩ =>
    show win1_0.index t (1 : Fin 2) * 128 + 1 * q.val = q.val
    rw [e1]; omega

/-- The matrix's block at point t is rows 512·t … of the matrix. -/
theorem rows_block1 (c : Dev nD) (t : Fin cfg1.N) (p : Fin 512) (j : Fin 4096) (r : Fin 4096)
    (hr : r.val = 512 * t.val + p.val) :
    (blk1 V c 1 t : Vec Ideal S512x4096 .f32) (ix2 p j) = (V c main_v7 : S4096x4096.Idx → EReal) (ix2 r j) := by
  obtain ⟨-, -, e0, e1, -⟩ := index_maps1 t
  unfold blk1
  rw [View.read_apply]
  show V c main_v7 _ = V c main_v7 _
  congr 1
  funext a
  apply Fin.ext
  match a with
  | ⟨0, _⟩ =>
    show win1_1.index t (0 : Fin 2) * 512 + 1 * p.val = r.val
    rw [e0, hr]; omega
  | ⟨1, _⟩ =>
    show win1_1.index t (1 : Fin 2) * 4096 + 1 * j.val = j.val
    rw [e1]; omega

/-- The residual rows the body reads out of the table at grid coordinate i are rows 512·i … of the table. -/
theorem residual1_apply (i : grid1.Coords) (e : Vec Ideal S4096x128 .f32) (p : Fin 512) (q : Fin 128) (r : Fin 4096)
    (hr : r.val = 512 * (i 0).val + p.val) :
    View.ld e (rectR1 i) (ix2 p q) = e (ix2 r q) := by
  show e ((rectR1 i).emb (ix2 p q)) = e (ix2 r q)
  congr 1
  funext a
  apply Fin.ext
  match a with
  | ⟨0, _⟩ =>
    show k1_off1 i 0 + 1 * p.val = r.val
    rw [k1_off1_eq i, hr]
    show 512 * (i 0).val + 1 * p.val = _
    omega
  | ⟨1, _⟩ =>
    show k1_off1 i 1 + 1 * q.val = q.val
    rw [k1_off1_eq i]
    show 0 + 1 * q.val = _
    omega

/-- WHAT THE BODY LEAVES at row p, column q of its block, from the table e and the rows a of the matrix, at grid
    coordinate i: the widened layer's formula at row r = 512·i + p. -/
theorem left1_apply (i : grid1.Coords) (e : Vec Ideal S4096x128 .f32) (a : Vec Ideal S512x4096 .f32)
    (p : Fin 512) (q : Fin 128) (r : Fin 4096) (hr : r.val = 512 * (i 0).val + p.val) :
    left1 (F := Ideal) i e a (ix2 p q)
      = if q.val = 64 then Cert.PathMean.one
        else (e (ix2 r q) + ∑ j : Fin 4096, a (ix2 p j) * e (ix2 j q))
              * Ideal.div Cert.PathMean.one ((∑ j : Fin 4096, a (ix2 p j) * e (ix2 j (64 : Fin 128))) + Cert.PathMean.one) := by
  unfold left1
  rw [View.canon_unit_zero zero_offsets]
  simp only [View.ld_unit_zero (S := S512x4096) zero_offsets, View.ld_unit_zero (S := S4096x128) zero_offsets]
  rw [Cert.PathMean.Pay.pay1_apply, residual1_apply i e p q r hr]

/-- The function the result array ends holding: the widened layer, along the matrix, of the table. -/
def wide1 (c : Dev nD) : S4096x128.Idx → EReal := fun i =>
  Cert.PathMean.wideLayer (fun r j => (V c main_v7 : S4096x4096.Idx → EReal) (ix2 r j))
    (fun r q => (V c main_v5 : S4096x128.Idx → EReal) (ix2 r q)) (i 0) (i 1)

/-- Row p, column q of the result's block at point t sits at row 512·t + p, column q of the array. -/
theorem result_block1_emb (t : Fin cfg1.N) (p : Fin 512) (q : Fin 128) (r : Fin 4096) (hr : r.val = 512 * t.val + p.val) :
    ((cfg1.win 2).blk t).view.emb (ix2 p q) = (ix2 r q : S4096x128.Idx) := by
  obtain ⟨-, -, -, -, e0, e1, -⟩ := index_maps1 t
  funext a
  apply Fin.ext
  match a with
  | ⟨0, _⟩ =>
    show win1_2.index t (0 : Fin 2) * 512 + 1 * p.val = r.val
    rw [e0, hr]; omega
  | ⟨1, _⟩ =>
    show win1_2.index t (1 : Fin 2) * 128 + 1 * q.val = q.val
    rw [e1]; omega

/-- WHAT POINT t WRITES BACK is block t of the widened layer of the two arrays as the launch finds them. -/
theorem flushed1_eq (c : Dev nD) (t : Fin cfg1.N) :
    (dat1 V c).flushed 2 t = ((cfg1.win 2).blk t).view.read (Elt Ideal) (wide1 V c) := by
  obtain ⟨-, -, -, -, -, -, eg, ht⟩ := index_maps1 t
  show (cfg1.win 2).cut (grid1.coords t) ((dat1 V c).after 2 t) = _
  rw [dat1_after2]
  funext y
  obtain ⟨p, q, rfl⟩ : ∃ (p : Fin 512) (q : Fin 128), y = ix2 p q := ⟨y 0, y 1, eq_ix2 y⟩
  have hlt : 512 * t.val + p.val < 4096 := by have := p.isLt; omega
  rw [View.read_apply, result_block1_emb t p q ⟨512 * t.val + p.val, hlt⟩ rfl]
  show left1 (grid1.coords t) (blk1 V c 0 t) (blk1 V c 1 t) (ix2 p q) = wide1 V c (ix2 (⟨512 * t.val + p.val, hlt⟩ : Fin 4096) q)
  rw [left1_apply (grid1.coords t) _ _ p q ⟨512 * t.val + p.val, hlt⟩ (by rw [eg])]
  simp only [table_block1, rows_block1 V c t p _ ⟨512 * t.val + p.val, hlt⟩ rfl]
  rfl

/-- An index of the result array is in point t's block iff each coordinate is in the block's range on its axis. -/
theorem mem_block1 (t : Fin cfg1.N) (i : S4096x128.Idx) :
    i ∈ ((cfg1.win 2).blk t).view.set
      ↔ ∀ a : Fin 2, win1_2.index t a * S512x128.size a ≤ (i a).val
          ∧ (i a).val < win1_2.index t a * S512x128.size a + S512x128.size a := by
  show i ∈ ((View.whole main_v8).slice (win1_2.rect t)).set ↔ _
  rw [View.set_slice_whole, Rect.mem_set_unit]
  exact Iff.rfl

/-- The blocks tile the array: row r lies in the block of point r / 512. -/
theorem cover1 (i : S4096x128.Idx) :
    ∃ t : Fin cfg1.N, (cfg1.win 2).flush t = true ∧ i ∈ ((cfg1.win 2).blk t).view.set := by
  have hi0 : (i 0).val < 4096 := (i 0).isLt
  have hi1 : (i 1).val < 128 := (i 1).isLt
  have hN : cfg1.N = 8 := N_1
  let t : Fin cfg1.N := ⟨(i 0).val / 512, by rw [hN]; omega⟩
  obtain ⟨-, -, -, -, e0, e1, -⟩ := index_maps1 t
  have ht : t.val = (i 0).val / 512 := rfl
  refine ⟨t, flush1_2 t, ?_⟩
  rw [mem_block1]
  intro a
  match a with
  | ⟨0, _⟩ =>
    show win1_2.index t (0 : Fin 2) * 512 ≤ (i 0).val ∧ (i 0).val < win1_2.index t (0 : Fin 2) * 512 + 512
    rw [e0, ht]; omega
  | ⟨1, _⟩ =>
    show win1_2.index t (1 : Fin 2) * 128 ≤ (i 1).val ∧ (i 1).val < win1_2.index t (1 : Fin 2) * 128 + 128
    rw [e1]; omega

/-- THE RESULT ARRAY after launch 1 is the widened layer, along the matrix, of the table. -/
theorem array1_eq (c : Dev nD) : (dat1 V c).arrAt 2 cfg1.N = wide1 V c :=
  (dat1 V c).arrAt_eq_of_cover 2 (wide1 V c) (fun t _ => flushed1_eq V c t) cover1

theorem array_after1 (V : (c : Dev nD) → (b : Ref sig .tc) → Buf (Elt Ideal) ((c : Thread nD τ).loc b)) (c : Dev nD)
    (r : Fin 4096) (q : Fin 128) :
    ((dat1 (F := Ideal) V c).arrAt 2 cfg1.N : S4096x128.Idx → EReal) (ix2 r q)
      = Cert.PathMean.wideLayer (fun r j => (V c main_v7 : S4096x4096.Idx → EReal) (ix2 r j))
          (fun r q => (V c main_v5 : S4096x128.Idx → EReal) (ix2 r q)) r q :=
  congrFun (array1_eq V c) (ix2 r q)

end Cert.KernelIdeal.Hand

end
-- ==== Proof.HostGlue.lean ====
/-
  The layout operations around the launches, each read at an index: the argument table widened to 128 columns
  (the table, a column of ones, 63 columns of the zero word), the two path matrices cut out of the stack of two,
  and the first 64 columns of a 128-column table.
-/
import proofs.«159740_g15590731285067_cont_week2b_85_2_alg».proof.Proof.Gen.KernelIdeal
import proofs.«159740_g15590731285067_cont_week2b_85_2_alg».proof.Proof.Spec
import proofs.«159740_g15590731285067_cont_week2b_85_2_alg».proof.Proof.LibLayoutCols

noncomputable section

open scoped BigOperators

namespace Cert.PathMean.Glue

open Cert.KernelIdeal Cert.KernelIdeal.Facts₀ Idealize.ShloMosaic Idealize.ShloMosaic.ValueIdx

/-- the argument table widened to 128 columns: the table, a column of ones, 63 columns of the zero word -/
theorem widened_apply (x : FVec Ideal S4096x64 .f32) (r : Fin 4096) (q : Fin 128) :
    concatenate S4096x128 1 [⟨S4096x64, x⟩, ⟨S4096x1, broadcastInDim S4096x1 ![] bcast_S_S4096x1 (constant (F := Ideal) S_ .f32 0x3F800000#32)⟩, ⟨S4096x63, broadcastInDim S4096x63 ![] bcast_S_S4096x63 (constant (F := Ideal) S_ .f32 0x00000000#32)⟩] concatenates_S4096x64_S4096x1_S4096x63_S4096x128_d1 (ix2 r q)
      = Cert.PathMean.widen (Ideal.ofBits .f32 0x00000000#32) (Cert.PathMean.table x) r q := by
  unfold Cert.PathMean.widen Cert.PathMean.table
  by_cases h1 : q.val < 64
  · rw [dif_pos h1]
    exact Cert.RefLayout.cat3blocks_left (N := 4096) (a := 64) (b := 1) (c := 63) x _ _
      concatenates_S4096x64_S4096x1_S4096x63_S4096x128_d1 r q h1
  · rw [dif_neg h1]
    by_cases h2 : q.val = 64
    · rw [if_pos h2]
      refine (Cert.RefLayout.cat3blocks_mid (N := 4096) (a := 64) (b := 1) (c := 63) x _ _
        concatenates_S4096x64_S4096x1_S4096x63_S4096x128_d1 r q (by omega) (by omega)).trans ?_
      exact Cert.RefLayout.bcast0_apply _ _ _ _ _
    · rw [if_neg h2]
      refine (Cert.RefLayout.cat3blocks_right (N := 4096) (a := 64) (b := 1) (c := 63) x _ _
        concatenates_S4096x64_S4096x1_S4096x63_S4096x128_d1 r q (by omega)).trans ?_
      exact Cert.RefLayout.bcast0_apply _ _ _ _ _

/-- path matrix p of the stack: a slice of one leading index, reshaped to a matrix -/
theorem path0_apply (P : FVec Ideal S2x4096x4096 .f32) (r j : Fin 4096) :
    shapeCast S4096x4096 (extractStridedSlice S1x4096x4096 ![0, 0, 0] P slices_S2x4096x4096_S1x4096x4096_0_0_0) shapeCasts_S1x4096x4096_S4096x4096 (ix2 r j) = Cert.PathMean.path P 0 r j := by
  refine (shapeCast_apply _ shapeCasts_S1x4096x4096_S4096x4096 (ix2 r j) (ix3 (0 : Fin 1) r j) ?_).trans ?_
  · rewrite [Shape.rowMajor_val_three, Shape.rowMajor_val_two]
    show (0 * 4096 + r.val) * 4096 + j.val = r.val * 4096 + j.val
    omega
  · exact extractStridedSlice_apply ![0, 0, 0] P slices_S2x4096x4096_S1x4096x4096_0_0_0 (ix3 (0 : Fin 1) r j)
      (ix3 (0 : Fin 2) r j) (fun a => match a with
        | ⟨0, _⟩ => rfl
        | ⟨1, _⟩ => by show r.val = 0 + r.val; omega
        | ⟨2, _⟩ => by show j.val = 0 + j.val; omega)

theorem path1_apply (P : FVec Ideal S2x4096x4096 .f32) (r j : Fin 4096) :
    shapeCast S4096x4096 (extractStridedSlice S1x4096x4096 ![1, 0, 0] P slices_S2x4096x4096_S1x4096x4096_1_0_0) shapeCasts_S1x4096x4096_S4096x4096 (ix2 r j) = Cert.PathMean.path P 1 r j := by
  refine (shapeCast_apply _ shapeCasts_S1x4096x4096_S4096x4096 (ix2 r j) (ix3 (0 : Fin 1) r j) ?_).trans ?_
  · rewrite [Shape.rowMajor_val_three, Shape.rowMajor_val_two]
    show (0 * 4096 + r.val) * 4096 + j.val = r.val * 4096 + j.val
    omega
  · exact extractStridedSlice_apply ![1, 0, 0] P slices_S2x4096x4096_S1x4096x4096_1_0_0 (ix3 (0 : Fin 1) r j)
      (ix3 (1 : Fin 2) r j) (fun a => match a with
        | ⟨0, _⟩ => rfl
        | ⟨1, _⟩ => by show r.val = 0 + r.val; omega
        | ⟨2, _⟩ => by show j.val = 0 + j.val; omega)

/-- the first 64 columns of a 128-column table -/
theorem cols_apply (y : FVec Ideal S4096x128 .f32) (r : Fin 4096) (k : Fin 64) :
    extractStridedSlice S4096x64 ![0, 0] y slices_S4096x128_S4096x64_0_0 (ix2 r k) = y (ix2 r ⟨k.val, by have := k.isLt; omega⟩) := by
  refine (Cert.RefLayout.slice_cols_apply (N := 4096) (M := 128) (W := 64) 0 slices_S4096x128_S4096x64_0_0 y r k
    (by have := k.isLt; omega)).trans ?_
  exact congrArg y (congrArg (ix2 r) (Fin.ext (by show 0 + k.val = k.val; omega)))

end Cert.PathMean.Glue

end
-- ==== Proof.IdealValue.lean ====
/-
  What the program's result buffer holds at the end, as one function of the two argument arrays.

  Reading the six boundaries backwards: the result is the first 64 columns of what launch 1 leaves; launch 1 leaves the
  widened layer of what it was entered with (path matrix 1, cut out of the stack by the second host stretch, and the
  table launch 0 left); launch 0 leaves the widened layer of path matrix 0 and of the argument table widened by a column
  of ones and 63 columns of the zero word. Two widened layers from a widened table, narrowed, are the two layers.
-/
import proofs.«159740_g15590731285067_cont_week2b_85_2_alg».proof.Proof.IdealRun
import proofs.«159740_g15590731285067_cont_week2b_85_2_alg».proof.Proof.IdealArray
import proofs.«159740_g15590731285067_cont_week2b_85_2_alg».proof.Proof.HostGlue
import proofs.«159740_g15590731285067_cont_week2b_85_2_alg».proof.Proof.Spec
import Idealize.ShloMosaic.PureOps.Ideal
import Idealize.ShloMosaic.Lib.StableHlo.Run

noncomputable section

namespace Cert.KernelIdeal.Hand

open Cert.KernelIdeal.Gen
open Idealize.ShloMosaic Idealize.ShloMosaic.TcCoe Idealize.ShloMosaic.ValueIdx Idealize.ShloMosaic.StableHlo
open Idealize.SL.Sem

variable (m : (ℓ : Loc nD τ sig) → Buf (Elt Ideal) ℓ) (ρ : Dev nD → PrngReg)

/-! ## What the host stretches write -/

/-- The first stretch widens the argument table: the table, a column of the word of one, 63 columns of the zero word. -/
theorem entry0_table (c : Dev nD) :
    (B1 m ρ c (Proc.devRef .tc main_v2) : S4096x128.Idx → EReal)
      = concatenate S4096x128 1 [⟨S4096x64, (m ((c : Thread nD τ).loc main_arg0) : S4096x64.Idx → EReal)⟩,
          ⟨S4096x1, broadcastInDim S4096x1 ![] Facts₀.bcast_S_S4096x1 (constant (F := Ideal) S_ .f32 0x3F800000#32)⟩,
          ⟨S4096x63, broadcastInDim S4096x63 ![] Facts₀.bcast_S_S4096x63 (constant (F := Ideal) S_ .f32 0x00000000#32)⟩]
          Facts₀.concatenates_S4096x64_S4096x1_S4096x63_S4096x128_d1 := by
  show StableHlo.after hostOps0 (B0 m ρ c) (Proc.devRef .tc main_v2) = _
  after_results <;> rfl

/-- and cuts path matrix 0 out of the stack. -/
theorem entry0_matrix (c : Dev nD) :
    (B1 m ρ c (Proc.devRef .tc main_v4) : S4096x4096.Idx → EReal)
      = shapeCast S4096x4096 (extractStridedSlice S1x4096x4096 ![0, 0, 0] (m ((c : Thread nD τ).loc main_arg1) : S2x4096x4096.Idx → EReal)
          Facts₀.slices_S2x4096x4096_S1x4096x4096_0_0_0) Facts₀.shapeCasts_S1x4096x4096_S4096x4096 := by
  show StableHlo.after hostOps0 (B0 m ρ c) (Proc.devRef .tc main_v4) = _
  after_results <;> rfl

/-- The second stretch cuts path matrix 1 out of the stack as launch 0 left it, which is as launched. -/
theorem entry1_matrix (c : Dev nD) :
    (B3 m ρ c (Proc.devRef .tc main_v7) : S4096x4096.Idx → EReal)
      = shapeCast S4096x4096 (extractStridedSlice S1x4096x4096 ![1, 0, 0] (m ((c : Thread nD τ).loc main_arg1) : S2x4096x4096.Idx → EReal)
          Facts₀.slices_S2x4096x4096_S1x4096x4096_1_0_0) Facts₀.shapeCasts_S1x4096x4096_S4096x4096 := by
  have h : (B3 m ρ c (Proc.devRef .tc main_v7) : S4096x4096.Idx → EReal)
      = shapeCast S4096x4096 (extractStridedSlice S1x4096x4096 ![1, 0, 0] (B2 m ρ c (Proc.devRef .tc main_arg1) : S2x4096x4096.Idx → EReal)
          Facts₀.slices_S2x4096x4096_S1x4096x4096_1_0_0) Facts₀.shapeCasts_S1x4096x4096_S4096x4096 := by
    show StableHlo.after hostOps1 (B2 m ρ c) (Proc.devRef .tc main_v7) = _
    after_results <;> rfl
  rw [h, B2_other m ρ c main_arg1 (by decide), B1_kept m ρ c main_arg1 (by decide)]

/-- The last stretch keeps the first 64 columns of what launch 1 left. -/
theorem end_result (c : Dev nD) :
    (B5 m ρ c (Proc.devRef .tc main_v9) : S4096x64.Idx → EReal)
      = extractStridedSlice S4096x64 ![0, 0] (B4 m ρ c (Proc.devRef .tc main_v8) : S4096x128.Idx → EReal) Facts₀.slices_S4096x128_S4096x64_0_0 := by
  show StableHlo.after hostOps2 (B4 m ρ c) (Proc.devRef .tc main_v9) = _
  after_results <;> rfl

/-! ## The result -/

/-- Launch 1 is entered with the table launch 0 left: the second stretch does not write it. -/
theorem entry1_table (c : Dev nD) :
    (B3 m ρ c (Proc.devRef .tc main_v5) : S4096x128.Idx → EReal) = ((dat0 (E1 m ρ) c).arrAt 2 cfg0.N : S4096x128.Idx → EReal) :=
  (B3_kept m ρ c main_v5 (by decide)).trans (B2_array m ρ c 2)

/-- THE RESULT: at the end the result buffer holds the two layers of the argument table along the two path matrices. -/
theorem result_is_mean (c : Dev nD) :
    (B5 m ρ c (Proc.devRef .tc main_v9) : S4096x64.Idx → EReal)
      = Cert.PathMean.result (m ((c : Thread nD τ).loc main_arg0)) (m ((c : Thread nD τ).loc main_arg1)) := by
  funext i
  obtain ⟨r, k, rfl⟩ : ∃ (r : Fin 4096) (k : Fin 64), i = ix2 r k := ⟨i 0, i 1, eq_ix2 i⟩
  have hA0 : (fun r j => (E1 m ρ c main_v4 : S4096x4096.Idx → EReal) (ix2 r j))
      = Cert.PathMean.path (m ((c : Thread nD τ).loc main_arg1)) 0 :=
    funext fun r => funext fun j => by
      show (B1 m ρ c (Proc.devRef .tc main_v4) : S4096x4096.Idx → EReal) (ix2 r j) = _
      rw [entry0_matrix]; exact Cert.PathMean.Glue.path0_apply _ r j
  have hE0 : (fun r q => (E1 m ρ c main_v2 : S4096x128.Idx → EReal) (ix2 r q))
      = Cert.PathMean.widen (Ideal.ofBits .f32 0x00000000#32) (Cert.PathMean.table (m ((c : Thread nD τ).loc main_arg0))) :=
    funext fun r => funext fun q => by
      show (B1 m ρ c (Proc.devRef .tc main_v2) : S4096x128.Idx → EReal) (ix2 r q) = _
      rw [entry0_table]; exact Cert.PathMean.Glue.widened_apply _ r q
  have hA1 : (fun r j => (E3 m ρ c main_v7 : S4096x4096.Idx → EReal) (ix2 r j))
      = Cert.PathMean.path (m ((c : Thread nD τ).loc main_arg1)) 1 :=
    funext fun r => funext fun j => by
      show (B3 m ρ c (Proc.devRef .tc main_v7) : S4096x4096.Idx → EReal) (ix2 r j) = _
      rw [entry1_matrix]; exact Cert.PathMean.Glue.path1_apply _ r j
  have hE1 : (fun r q => (E3 m ρ c main_v5 : S4096x128.Idx → EReal) (ix2 r q))
      = Cert.PathMean.wideLayer (Cert.PathMean.path (m ((c : Thread nD τ).loc main_arg1)) 0)
          (Cert.PathMean.widen (Ideal.ofBits .f32 0x00000000#32) (Cert.PathMean.table (m ((c : Thread nD τ).loc main_arg0)))) :=
    funext fun r => funext fun q => by
      show (B3 m ρ c (Proc.devRef .tc main_v5) : S4096x128.Idx → EReal) (ix2 r q) = _
      rw [entry1_table, array_after0, hA0, hE0]
  rw [end_result, Cert.PathMean.Glue.cols_apply]
  have hB4 : (B4 m ρ c (Proc.devRef .tc main_v8) : S4096x128.Idx → EReal) = ((dat1 (E3 m ρ) c).arrAt 2 cfg1.N : S4096x128.Idx → EReal) :=
    B4_array m ρ c 2
  rw [hB4, array_after1, hA1, hE1]
  exact congrFun (congrFun (Cert.PathMean.narrow_two _ _ _ _) r) k

/-! ## The run, with the result named -/

/-- Every weakly fair execution of the program terminates with the result buffer at the two layers of the arguments and the
    arguments as launched. -/
theorem run_value : θ_run defs (onTc (τ := τ) (main (F := Ideal))) ⟨m, fun _ => 0, ρ⟩ (fun r => ∀ c : Dev nD,
      r.2.mem ((c.tc : Thread nD τ).loc main_v9)
          = Cert.PathMean.result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (unscoped_held main_v9 (by decide))).trans (result_is_mean m ρ c),
     (h c _ (unscoped_held main_arg0 (by decide))).trans (B5_arg0 m ρ c),
     (h c _ (unscoped_held main_arg1 (by decide))).trans (B5_arg1 m ρ c)⟩) (run_all m ρ)

end Cert.KernelIdeal.Hand

end
-- ==== Proof.RefMean.lean ====
/-
  The reference program is the specification: read one operation at a time, its last stage is two layers of the
  path-mean aggregation, along path matrix 0 and then path matrix 1.

  Each layer is  (e + A·e) · bcast(1 / (rowsum(A) + 1)):  a matrix product with the path matrix, the row sums of the
  path matrix started from the zero word, the reciprocal of one plus the row sum broadcast along the columns.
-/
import proofs.«159740_g15590731285067_cont_week2b_85_2_alg».proof.Proof.Gen.ReferenceIdeal.Read
import proofs.«159740_g15590731285067_cont_week2b_85_2_alg».proof.Proof.Spec

noncomputable section

open scoped BigOperators

namespace Cert.PathMean.Ref

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The slice at leading index 0, reshaped to a matrix, is path matrix 0: entry (r, j) of the matrix sits at flat
    position r·4096 + j of the one-matrix stack. -/
theorem mat0_apply (x1 : (⟨S2x4096x4096, .f32⟩ : BufTy).Contents (Elt Ideal)) (r j : Fin 4096) :
    val_main_v1 (F := Ideal) x1 (ix2 r j) = Cert.PathMean.path x1 0 r j := by
  have e1 : idx_main_v1 (ix2 r j) = ix3 (0 : Fin 1) r j := funext fun a => Fin.ext (by
    have hr := r.isLt
    have hj := j.isLt
    match a with
    | ⟨0, _⟩ => rfl
    | ⟨1, _⟩ =>
      show (r.val * 4096 + j.val) / 4096 % 4096 = r.val
      omega
    | ⟨2, _⟩ =>
      show (r.val * 4096 + j.val) % 4096 = j.val
      omega)
  have e0 : idx_main_v0 (ix3 (0 : Fin 1) r j) = ix3 (0 : Fin 2) r j := funext fun a => Fin.ext (by
    match a with
    | ⟨0, _⟩ => rfl
    | ⟨1, _⟩ => rfl
    | ⟨2, _⟩ => rfl)
  rw [val_main_v1_apply, e1, val_main_v0_apply, e0]
  rfl

/-- The slice at leading index 1, reshaped to a matrix, is path matrix 1. -/
theorem mat1_apply (x1 : (⟨S2x4096x4096, .f32⟩ : BufTy).Contents (Elt Ideal)) (r j : Fin 4096) :
    val_main_v13 (F := Ideal) x1 (ix2 r j) = Cert.PathMean.path x1 1 r j := by
  have e1 : idx_main_v13 (ix2 r j) = ix3 (0 : Fin 1) r j := funext fun a => Fin.ext (by
    have hr := r.isLt
    have hj := j.isLt
    match a with
    | ⟨0, _⟩ => rfl
    | ⟨1, _⟩ =>
      show (r.val * 4096 + j.val) / 4096 % 4096 = r.val
      omega
    | ⟨2, _⟩ =>
      show (r.val * 4096 + j.val) % 4096 = j.val
      omega)
  have e0 : idx_main_v12 (ix3 (0 : Fin 1) r j) = ix3 (1 : Fin 2) r j := funext fun a => Fin.ext (by
    match a with
    | ⟨0, _⟩ => rfl
    | ⟨1, _⟩ => rfl
    | ⟨2, _⟩ => rfl)
  rw [val_main_v13_apply, e1, val_main_v12_apply, e0]
  rfl

/-- The reciprocal of one plus the row sum of path matrix 0, at row r. The row sum starts from the zero word, which is
    the number zero. -/
theorem recip0_apply (x1 : (⟨S2x4096x4096, .f32⟩ : BufTy).Contents (Elt Ideal)) (r : Fin 4096) :
    val_main_v8 (F := Ideal) x1 (ix1 r)
      = Ideal.div Cert.PathMean.one ((∑ j : Fin 4096, Cert.PathMean.path x1 0 r j) + Cert.PathMean.one) := by
  have e4 : ∀ j : Fin 4096, idx_main_v4 (ix1 r) j = ix2 r j := fun j => funext fun a => Fin.ext (by
    match a with
    | ⟨0, _⟩ => rfl
    | ⟨1, _⟩ => rfl)
  rw [val_main_v8_apply, val_main_v7_apply, val_main_cst_1_apply, val_main_v6_apply, val_main_v5_apply,
    val_main_cst_0_apply, val_main_v4_apply, val_main_cst_apply]
  simp only [e4, mat0_apply]
  rw [Ideal.hostDivf_def, Ideal.addf_def, Ideal.ofBits_def, Ideal.ofBits_def, Ideal.ofBits_zero_f32, zero_add]

/-- The reciprocal of one plus the row sum of path matrix 1, at row r. -/
theorem recip1_apply (x1 : (⟨S2x4096x4096, .f32⟩ : BufTy).Contents (Elt Ideal)) (r : Fin 4096) :
    val_main_v20 (F := Ideal) x1 (ix1 r)
      = Ideal.div Cert.PathMean.one ((∑ j : Fin 4096, Cert.PathMean.path x1 1 r j) + Cert.PathMean.one) := by
  have e16 : ∀ j : Fin 4096, idx_main_v16 (ix1 r) j = ix2 r j := fun j => funext fun a => Fin.ext (by
    match a with
    | ⟨0, _⟩ => rfl
    | ⟨1, _⟩ => rfl)
  rw [val_main_v20_apply, val_main_v19_apply, val_main_cst_4_apply, val_main_v18_apply, val_main_v17_apply,
    val_main_cst_3_apply, val_main_v16_apply, val_main_cst_2_apply]
  simp only [e16, mat1_apply]
  rw [Ideal.hostDivf_def, Ideal.addf_def, Ideal.ofBits_def, Ideal.ofBits_def, Ideal.ofBits_zero_f32, zero_add]

/-- The first layer's stage at (r, k) is the layer along path matrix 0 of the argument table. -/
theorem layer1_apply (x0 : (⟨S4096x64, .f32⟩ : BufTy).Contents (Elt Ideal))
    (x1 : (⟨S2x4096x4096, .f32⟩ : BufTy).Contents (Elt Ideal)) (r : Fin 4096) (k : Fin 64) :
    val_main_v11 (F := Ideal) x0 x1 (ix2 r k)
      = Cert.PathMean.layer (Cert.PathMean.path x1 0) (Cert.PathMean.table x0) r k := by
  have el : ∀ j : Fin 4096, lidx_main_v2 (ix2 r k) j = ix2 r j := fun j => funext fun a => Fin.ext (by
    match a with
    | ⟨0, _⟩ => rfl
    | ⟨1, _⟩ => rfl)
  have er : ∀ j : Fin 4096, ridx_main_v2 (ix2 r k) j = ix2 j k := fun j => funext fun a => Fin.ext (by
    match a with
    | ⟨0, _⟩ => rfl
    | ⟨1, _⟩ => rfl)
  have e10 : idx_main_v10 (ix2 r k) = ix2 r (0 : Fin 1) := funext fun a => Fin.ext (by
    match a with
    | ⟨0, _⟩ => rfl
    | ⟨1, _⟩ => rfl)
  have e9 : idx_main_v9 (ix2 r (0 : Fin 1)) = ix1 r := funext fun a => Fin.ext (by
    match a with
    | ⟨0, _⟩ => rfl)
  rw [val_main_v11_apply, val_main_v3_apply, val_main_v2_apply, val_main_v10_apply, e10, val_main_v9_apply, e9,
    recip0_apply]
  simp only [el, er, mat0_apply]
  rfl

/-- The second layer's stage at (r, k) is the layer along path matrix 1 of the first layer's stage. -/
theorem layer2_apply (x0 : (⟨S4096x64, .f32⟩ : BufTy).Contents (Elt Ideal))
    (x1 : (⟨S2x4096x4096, .f32⟩ : BufTy).Contents (Elt Ideal)) (r : Fin 4096) (k : Fin 64) :
    val_main_v23 (F := Ideal) x0 x1 (ix2 r k)
      = Cert.PathMean.layer (Cert.PathMean.path x1 1)
          (fun (r' : Fin 4096) (k' : Fin 64) => val_main_v11 (F := Ideal) x0 x1 (ix2 r' k')) r k := by
  have el : ∀ j : Fin 4096, lidx_main_v14 (ix2 r k) j = ix2 r j := fun j => funext fun a => Fin.ext (by
    match a with
    | ⟨0, _⟩ => rfl
    | ⟨1, _⟩ => rfl)
  have er : ∀ j : Fin 4096, ridx_main_v14 (ix2 r k) j = ix2 j k := fun j => funext fun a => Fin.ext (by
    match a with
    | ⟨0, _⟩ => rfl
    | ⟨1, _⟩ => rfl)
  have e22 : idx_main_v22 (ix2 r k) = ix2 r (0 : Fin 1) := funext fun a => Fin.ext (by
    match a with
    | ⟨0, _⟩ => rfl
    | ⟨1, _⟩ => rfl)
  have e21 : idx_main_v21 (ix2 r (0 : Fin 1)) = ix1 r := funext fun a => Fin.ext (by
    match a with
    | ⟨0, _⟩ => rfl)
  rw [val_main_v23_apply, val_main_v15_apply, val_main_v14_apply, val_main_v22_apply, e22, val_main_v21_apply, e21,
    recip1_apply]
  simp only [el, er, mat1_apply]
  rfl

/-- THE REFERENCE IS THE SPECIFICATION: its last stage is two layers, along path matrix 0 and then path matrix 1. -/
theorem val_eq (x0 : (⟨Cert.ReferenceIdeal.S4096x64, .f32⟩ : BufTy).Contents (Elt Ideal))
    (x1 : (⟨Cert.ReferenceIdeal.S2x4096x4096, .f32⟩ : BufTy).Contents (Elt Ideal)) :
    Cert.ReferenceIdeal.Read.val_main_v23 (F := Ideal) x0 x1 = Cert.PathMean.result x0 x1 := by
  funext i
  obtain ⟨r, k, rfl⟩ : ∃ (r : Fin 4096) (k : Fin 64), i = ix2 r k := ⟨i 0, i 1, eq_ix2 i⟩
  have h1 : (fun (r' : Fin 4096) (k' : Fin 64) => val_main_v11 (F := Ideal) x0 x1 (ix2 r' k'))
      = Cert.PathMean.layer (Cert.PathMean.path x1 0) (Cert.PathMean.table x0) :=
    funext fun r' => funext fun k' => layer1_apply x0 x1 r' k'
  rw [layer2_apply, h1]
  rfl

end Cert.PathMean.Ref

end
-- ==== Proof.lean ====
/-
  The certificate of the layer kernel against its reference: mean aggregation of an embedding table (4096 × 64) along two
  dense path matrices (a 2 × 4096 × 4096 stack).

  The reference computes, for each path matrix A in turn, e ← (e + A·e) · (1 / (rowsum(A) + 1)), the row sum and the
  matrix product as two separate reductions. The kernel widens the table to 128 columns with a column of ones, so that one
  matrix product gives both A·e and, in column 64, the row sums; it keeps the column of ones for the next layer and
  returns the first 64 columns. Over the extended reals the two are one function of the argument arrays
  (`Cert.PathMean.result`): the only law joining them is x · 1 = x, which holds at the infinities too, so no finiteness of
  the inputs is used.

  Frames: each program runs to its end, faults nowhere and leaves both argument arrays as launched. For the two kernel
  programs (the printed one over words, the idealized one over the extended reals) this is the run of the five stretches of
  the program (host operations, launch 0, host operations, launch 1, a host operation), each launch a pipeline whose body
  overwrites its whole output block from its two input blocks at every grid point; for the reference it is its run as a
  line of host operations. The idealization rewrote no operation, so it has nothing to preserve.
-/
import proofs.«159740_g15590731285067_cont_week2b_85_2_alg».proof.Defs
import proofs.«159740_g15590731285067_cont_week2b_85_2_alg».proof.Proof.Gen.Kernel
import proofs.«159740_g15590731285067_cont_week2b_85_2_alg».proof.Proof.Gen.KernelIdeal
import proofs.«159740_g15590731285067_cont_week2b_85_2_alg».proof.Proof.Gen.ReferenceIdeal
import proofs.«159740_g15590731285067_cont_week2b_85_2_alg».proof.Proof.Gen.Pre_finite_inputs
import proofs.«159740_g15590731285067_cont_week2b_85_2_alg».proof.Proof.Gen.ReferenceIdeal.Run
import proofs.«159740_g15590731285067_cont_week2b_85_2_alg».proof.Proof.Gen.ReferenceIdeal.Read
import proofs.«159740_g15590731285067_cont_week2b_85_2_alg».proof.Proof.WordRun
import proofs.«159740_g15590731285067_cont_week2b_85_2_alg».proof.Proof.IdealValue
import proofs.«159740_g15590731285067_cont_week2b_85_2_alg».proof.Proof.RefMean

noncomputable section

namespace Cert.Proof

open Idealize.ShloMosaic Idealize.ShloMosaic.TcCoe Idealize.SL.Sem

/-- The printed kernel program runs and leaves its arguments as launched. -/
theorem frame_word : Cert.frame_Kernel := fun m ρ _ => Cert.Kernel.Hand.frame m ρ

/-- So does the idealized kernel program. -/
theorem frame_ideal : Cert.frame_KernelIdeal := fun m ρ _ => Cert.KernelIdeal.Hand.frame m ρ

/-- So does the reference: its run as a line of host operations, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Over the extended reals, from memories agreeing on the arguments, both programs end with the result at the two
    layers of the argument table along the two path matrices, and the arguments as launched. -/
theorem algebraic : Cert.algebraic_KernelIdeal_ReferenceIdeal := by
  intro m ρ m' ρ' _ hagree
  refine ⟨fun c => Cert.PathMean.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v23_eq _ _).trans ((Cert.PathMean.Ref.val_eq _ _).trans ?_)
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_word, frame_ideal, frame_reference, preserves, algebraic⟩

end Cert.Proof

end
